-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S2x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S1x1024 : Shape := ⟨2, ![1, 1024]⟩
abbrev S4096x1024 : Shape := ⟨2, ![4096, 1024]⟩
abbrev S512x1024 : Shape := ⟨2, ![512, 1024]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S2x16x2048x2048 : Shape := ⟨4, ![2, 16, 2048, 2048]⟩

abbrev nBuf : Space → Nat
  | .hbm => 35
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S4096x1024, .f32⟩
  | .hbm, ⟨17, _⟩ => ⟨S4096x1024, .bf16⟩
  | .hbm, ⟨18, _⟩ => ⟨S4096x1024, .bf16⟩
  | .hbm, ⟨19, _⟩ => ⟨S4096x1024, .bf16⟩
  | .hbm, ⟨20, _⟩ => ⟨S2x2048x16x64, .bf16⟩
  | .hbm, ⟨21, _⟩ => ⟨S2x16x2048x64, .bf16⟩
  | .hbm, ⟨22, _⟩ => ⟨S32x2048x64, .bf16⟩
  | .hbm, ⟨23, _⟩ => ⟨S2x2048x16x64, .bf16⟩
  | .hbm, ⟨24, _⟩ => ⟨S2x16x2048x64, .bf16⟩
  | .hbm, ⟨25, _⟩ => ⟨S32x2048x64, .bf16⟩
  | .hbm, ⟨26, _⟩ => ⟨S2x2048x16x64, .bf16⟩
  | .hbm, ⟨27, _⟩ => ⟨S2x16x2048x64, .bf16⟩
  | .hbm, ⟨28, _⟩ => ⟨S32x2048x64, .bf16⟩
  | .hbm, ⟨29, _⟩ => ⟨S32x2048x64, .f32⟩
  | .hbm, ⟨30, _⟩ => ⟨S32x2048x2048, .f32⟩
  | .hbm, ⟨31, _⟩ => ⟨S2x16x2048x64, .f32⟩
  | .hbm, ⟨32, _⟩ => ⟨S2x2048x16x64, .f32⟩
  | .hbm, ⟨33, _⟩ => ⟨S2x2048x1024, .f32⟩
  | .hbm, ⟨34, _⟩ => ⟨S2x16x2048x2048, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x512x64, .bf16⟩
  | .local _ .vmem, ⟨15, _⟩ => ⟨S1x512x64, .bf16⟩
  | .local _ .vmem, ⟨16, _⟩ => ⟨S1x2048x64, .bf16⟩
  | .local _ .vmem, ⟨17, _⟩ => ⟨S1x2048x64, .bf16⟩
  | .local _ .vmem, ⟨18, _⟩ => ⟨S1x2048x64, .bf16⟩
  | .local _ .vmem, ⟨19, _⟩ => ⟨S1x2048x64, .bf16⟩
  | .local _ .vmem, ⟨20, _⟩ => ⟨S1x512x64, .f32⟩
  | .local _ .vmem, ⟨21, _⟩ => ⟨S1x512x64, .f32⟩
  | .local _ .vmem, ⟨22, _⟩ => ⟨S1x512x2048, .f32⟩
  | .local _ .vmem, ⟨23, _⟩ => ⟨S1x512x2048, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S4096x1024_S2x2048x16x64 : S4096x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  shapeCasts_S32x2048x2048_S2x16x2048x2048 : S32x2048x2048.ShapeCasts S2x16x2048x2048
  dot_S512x1024_S1024x1024_S512x1024_1_0_0_1_n_n_wf : DotDims.WF S512x1024 S1024x1024 S512x1024 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S4096x1024.size a
  hwx0_7 : ∀ i : grid0.Coords, EltTy.bits .bf16 = 32 ∨ (Rect.block (s := S4096x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S4096x1024.size a
  hwx0_8 : ∀ i : grid0.Coords, EltTy.bits .bf16 = 32 ∨ (Rect.block (s := S4096x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S4096x1024.size a
  hwx0_9 : ∀ i : grid0.Coords, EltTy.bits .bf16 = 32 ∨ (Rect.block (s := S4096x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S32x2048x64.size a
  hwx1_0 : ∀ i : grid1.Coords, EltTy.bits .bf16 = 32 ∨ (Rect.block (s := S32x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S32x2048x64.size a
  hwx1_3 : ∀ i : grid1.Coords, EltTy.bits .f32 = 32 ∨ (Rect.block (s := S32x2048x64) S1x512x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x2048.size a ≤ S32x2048x2048.size a
  hwx1_4 : ∀ i : grid1.Coords, EltTy.bits .f32 = 32 ∨ (Rect.block (s := S32x2048x2048) S1x512x2048.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v9) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v13) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20_0) S1x512x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20_1) S1x512x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S2x2048x1024, .f32⟩
  | .hbm, ⟨8, _⟩ => ⟨S1x1x1024, .f32⟩
  | .hbm, ⟨9, _⟩ => ⟨S2x2048x1024, .f32⟩
  | .hbm, ⟨10, _⟩ => ⟨S2x2048x1024, .f32⟩
  | .hbm, ⟨11, _⟩ => ⟨S2x2048x16x64, .f32⟩
  | .hbm, ⟨12, _⟩ => ⟨S2x16x2048x64, .f32⟩
  | .hbm, ⟨13, _⟩ => ⟨S2x2048x1024, .f32⟩
  | .hbm, ⟨14, _⟩ => ⟨S1x1x1024, .f32⟩
  | .hbm, ⟨15, _⟩ => ⟨S2x2048x1024, .f32⟩
  | .hbm, ⟨16, _⟩ => ⟨S2x2048x1024, .f32⟩
  | .hbm, ⟨17, _⟩ => ⟨S2x2048x16x64, .f32⟩
  | .hbm, ⟨18, _⟩ => ⟨S2x16x2048x64, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x16x64, .f32⟩
  | .hbm, ⟨24, _⟩ => ⟨S2x16x2048x64, .f32⟩
  | .hbm, ⟨25, _⟩ => ⟨S2x16x2048x2048, .f32⟩
  | .hbm, ⟨26, _⟩ => ⟨S_, .f32⟩
  | .hbm, ⟨27, _⟩ => ⟨S_, .f32⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S_, .f32⟩
  | .hbm, ⟨33, _⟩ => ⟨S2x16x2048, .f32⟩
  | .hbm, ⟨34, _⟩ => ⟨S2x16x2048, .f32⟩
  | .hbm, ⟨35, _⟩ => ⟨S2x16x2048x1, .f32⟩
  | .hbm, ⟨36, _⟩ => ⟨S2x16x2048x2048, .f32⟩
  | .hbm, ⟨37, _⟩ => ⟨S2x16x2048x2048, .f32⟩
  | .hbm, ⟨38, _⟩ => ⟨S2x16x2048x2048, .f32⟩
  | .hbm, ⟨39, _⟩ => ⟨S_, .f32⟩
  | .hbm, ⟨40, _⟩ => ⟨S2x16x2048, .f32⟩
  | .hbm, ⟨41, _⟩ => ⟨S2x16x2048x1, .f32⟩
  | .hbm, ⟨42, _⟩ => ⟨S2x16x2048x2048, .f32⟩
  | .hbm, ⟨43, _⟩ => ⟨S2x16x2048x2048, .f32⟩
  | .hbm, ⟨44, _⟩ => ⟨S2x16x2048x64, .f32⟩
  | .hbm, ⟨45, _⟩ => ⟨S2x2048x16x64, .f32⟩
  | .hbm, ⟨46, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KernelRun.lean ====
/-
  The idealized kernel's run with both results named.

  @main is five stretches: host operations, the projection call, host operations, the attention call, host operations.
  The buffer contents at each boundary are a fold through them; every weakly fair execution terminates without a fault
  in a state whose unscoped buffers hold the last boundary's contents. Read at the two result buffers this names what
  the program returns; read at the argument buffers it gives back the launch contents.
-/
import proofs.«164298_j55353538511182_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at the last boundary's
    contents and the seven arguments as launched. -/
theorem run : θ_run defs (onTc (τ := τ) (main (F := F))) ⟨m, fun _ => 0, ρ⟩ (fun r => ∀ c : Dev nD,
      r.2.mem ((c.tc : Thread nD τ).loc main_v23) = W5 m ρ c (Proc.devRef .tc main_v23)
      ∧ r.2.mem ((c.tc : Thread nD τ).loc main_v24) = W5 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v23 (by decide)),
       h c _ (mem_uc main_v24 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.RunValue

end
-- ==== Proof.KernelHost.lean ====
/-
  The arrays at the boundaries of the idealized kernel's @main, read off its host operations.

  Before the projection call the input [2, 2048, 1024] is flattened to [4096, 1024], each weight matrix is transposed
  (the cast to a narrower format is the identity on the extended reals) and each bias [1024] becomes a row [1, 1024].
  Between the calls each projection [4096, 1024] is split into heads: reshaped to [2, 2048, 16, 64], its position and
  head axes exchanged, and the batch and head axes merged into [32, 2048, 64]. After the attention call the output is
  split back to [2, 16, 2048, 64], its axes exchanged back, and its head and feature axes merged into [2, 2048, 1024];
  the weights [32, 2048, 2048] are split into [2, 16, 2048, 2048].
-/
import proofs.«164298_j55353538511182_2_alg».proof.Proof.Gen.KernelIdeal.Frame
import Idealize.ShloMosaic.PureOps.Ideal

set_option maxRecDepth 16384

noncomputable section

namespace Cert.KernelIdeal.Host

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-! ## Entering the projection call -/

theorem W1_v9 (c : Dev nD) : W1 m ρ c (Proc.devRef .tc main_v9)
    = shapeCast S4096x1024 (m ((c : Thread nD τ).loc main_arg0)) shapeCasts_S2x2048x1024_S4096x1024 := by
  dsimp only [W1, hostOps0]; after_results <;> rfl

theorem W1_v1 (c : Dev nD) : W1 m ρ c (Proc.devRef .tc main_v1)
    = truncf (F := Ideal) .bf16 (transpose S1024x1024 [1, 0] (m ((c : Thread nD τ).loc main_arg1)) transposes_S1024x1024_S1024x1024_1_0) bitsLt_bf16_f32 := by
  dsimp only [W1, hostOps0]; after_results <;> rfl

theorem W1_v3 (c : Dev nD) : W1 m ρ c (Proc.devRef .tc main_v3)
    = truncf (F := Ideal) .bf16 (transpose S1024x1024 [1, 0] (m ((c : Thread nD τ).loc main_arg3)) transposes_S1024x1024_S1024x1024_1_0) bitsLt_bf16_f32 := by
  dsimp only [W1, hostOps0]; after_results <;> rfl

theorem W1_v5 (c : Dev nD) : W1 m ρ c (Proc.devRef .tc main_v5)
    = truncf (F := Ideal) .bf16 (transpose S1024x1024 [1, 0] (m ((c : Thread nD τ).loc main_arg5)) transposes_S1024x1024_S1024x1024_1_0) bitsLt_bf16_f32 := by
  dsimp only [W1, hostOps0]; after_results <;> rfl

theorem W1_v6 (c : Dev nD) : W1 m ρ c (Proc.devRef .tc main_v6)
    = shapeCast S1x1024 (m ((c : Thread nD τ).loc main_arg2)) shapeCasts_S1024_S1x1024 := by
  dsimp only [W1, hostOps0]; after_results <;> rfl

theorem W1_v7 (c : Dev nD) : W1 m ρ c (Proc.devRef .tc main_v7)
    = shapeCast S1x1024 (m ((c : Thread nD τ).loc main_arg4)) shapeCasts_S1024_S1x1024 := by
  dsimp only [W1, hostOps0]; after_results <;> rfl

theorem W1_v8 (c : Dev nD) : W1 m ρ c (Proc.devRef .tc main_v8)
    = shapeCast S1x1024 (m ((c : Thread nD τ).loc main_arg6)) shapeCasts_S1024_S1x1024 := by
  dsimp only [W1, hostOps0]; after_results <;> rfl

/-! ## Between the calls: a projection split into heads -/

/-- A projection [4096, 1024] as a stack of 32 head matrices [32, 2048, 64]. -/
def toHeads (p : S4096x1024.Idx → EReal) : S32x2048x64.Idx → EReal :=
  shapeCast S32x2048x64
    (transpose S2x16x2048x64 [0, 2, 1, 3] (shapeCast S2x2048x16x64 p shapeCasts_S4096x1024_S2x2048x16x64)
      transposes_S2x2048x16x64_S2x16x2048x64_0_2_1_3)
    shapeCasts_S2x16x2048x64_S32x2048x64

theorem W3_v13 (c : Dev nD) : W3 m ρ c (Proc.devRef .tc main_v13) = toHeads (W2 m ρ c (Proc.devRef .tc main_v10_0)) := by
  dsimp only [W3, hostOps1]; after_results <;> rfl

theorem W3_v16 (c : Dev nD) : W3 m ρ c (Proc.devRef .tc main_v16) = toHeads (W2 m ρ c (Proc.devRef .tc main_v10_1)) := by
  dsimp only [W3, hostOps1]; after_results <;> rfl

theorem W3_v19 (c : Dev nD) : W3 m ρ c (Proc.devRef .tc main_v19) = toHeads (W2 m ρ c (Proc.devRef .tc main_v10_2)) := by
  dsimp only [W3, hostOps1]; after_results <;> rfl

/-! ## After the attention call -/

theorem W5_v23 (c : Dev nD) : W5 m ρ c (Proc.devRef .tc main_v23)
    = shapeCast S2x2048x1024
        (transpose S2x2048x16x64 [0, 2, 1, 3]
          (shapeCast S2x16x2048x64 (W4 m ρ c (Proc.devRef .tc main_v20_0)) shapeCasts_S32x2048x64_S2x16x2048x64)
          transposes_S2x16x2048x64_S2x2048x16x64_0_2_1_3)
        shapeCasts_S2x2048x16x64_S2x2048x1024 := by
  dsimp only [W5, hostOps2]; after_results <;> rfl

theorem W5_v24 (c : Dev nD) : W5 m ρ c (Proc.devRef .tc main_v24)
    = shapeCast S2x16x2048x2048 (W4 m ρ c (Proc.devRef .tc main_v20_1)) shapeCasts_S32x2048x2048_S2x16x2048x2048 := by
  dsimp only [W5, hostOps2]; after_results <;> rfl

end Cert.KernelIdeal.Host

end
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.LibRowMax.lean ====
/-
  The maximum of each row of a matrix, read at a row.

  On the extended reals the maximum of an [a, b] array over its second axis, read at row r, is the fold of max, from the
  accumulator's value, over the columns k of the entry (r, k).
-/
import Idealize.ShloMosaic.Lib.ValueLayout
import Idealize.ShloMosaic.PureOps.Ideal.Laws

namespace RowMax

open Idealize.ShloMosaic Idealize.ShloMosaic.ValueIdx

/-- The row maximum at row r: the fold of max over that row's entries. -/
theorem rowMax_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ v acc h hφ hacc (ix1 r)
      = (Finset.univ : Finset (Fin b)).fold max (Ideal.ofBits φ acc) (fun k => v (ix2 r k)) := by
  refine (Ideal.multiReduction_maximumf_single v acc h hφ hacc (ix1 r)).trans ?_
  show (Finset.univ : Finset (Fin b)).fold max (Ideal.ofBits φ acc) (fun k => v (h.lift (ix1 r) k)) = _
  refine congrArg (fun f => (Finset.univ : Finset (Fin b)).fold max (Ideal.ofBits φ acc) f) (funext fun k => congrArg v (funext fun d => Fin.ext ?_))
  match d with
  | ⟨0, _⟩ => rfl
  | ⟨1, _⟩ => rfl

end RowMax
-- ==== Proof.LibRowSoftmax.lean ====
/-
  The softmax of each row of a matrix, read at an entry.

  For a row of scores s : Fin b → EReal and an accumulator value `bot` the row's maximum is the fold of max from `bot`
  over the scores, and the row's share at column j is exp (s j − maximum) divided by the sum over the columns k of
  exp (s k − maximum). On the extended reals the usual arrangement of a softmax over the second axis of an [a, b]
  array — the maximum over the axis kept as an [a, 1] column and broadcast back, the difference, its exponential, the
  sum of the exponentials over the axis kept and broadcast back likewise, the quotient — reads, at (r, c), the share of
  row r at column c. Nothing is assumed finite: both sides are the same operations of the extended reals.

  Also: taking the maximum with the accumulator value once more changes nothing, the fold being already above it.
-/
import proofs.«164298_j55353538511182_2_alg».proof.Proof.LibKeepdims
import proofs.«164298_j55353538511182_2_alg».proof.Proof.LibRowMax

noncomputable section

namespace RowSoftmax

open Idealize.ShloMosaic Idealize.ShloMosaic.ValueIdx

/-- A row's maximum: the fold of max, from the accumulator value, over its scores. -/
def rowMax {b : ℕ} (bot : EReal) (s : Fin b → EReal) : EReal := (Finset.univ : Finset (Fin b)).fold max bot s

/-- A row's share at column j: its shifted exponential over the sum of the row's shifted exponentials. -/
def share {b : ℕ} (bot : EReal) (s : Fin b → EReal) (j : Fin b) : EReal :=
  Ideal.div (Ideal.exp (s j - rowMax bot s)) (∑ k : Fin b, Ideal.exp (s k - rowMax bot s))

/-- The fold of max from `bot` is above `bot`: one more max with it is the fold. -/
theorem max_rowMax {b : ℕ} (bot : EReal) (s : Fin b → EReal) : max bot (rowMax bot s) = rowMax bot s :=
  max_eq_right ((Finset.le_fold_max bot).mpr (Or.inl le_rfl))

/-- The softmax over the second axis of an [a, b] array, as a kernel arranges it with kept axes, read at (r, c). -/
theorem softmax_rows_apply {a b : ℕ} (v : FVec Ideal (⟨2, ![a, b]⟩ : Shape) .f32) (accM accS : BitVec 32)
    (h : (⟨2, ![a, b]⟩ : Shape).Reduces [1] ⟨1, ![a]⟩) (hφ hφ' : FKind.Formats .f32)
    (hM : accM = FKind.maximumf.neutral .f32 hφ) (hS : accS = FKind.add.neutral .f32 hφ')
    (hc : (⟨1, ![a]⟩ : Shape).ShapeCasts ⟨2, ![a, 1]⟩) (hb : (⟨2, ![a, 1]⟩ : Shape).Broadcasts ⟨2, ![a, b]⟩)
    (r : Fin a) (c : Fin b) :
    divf (exp (subf v (broadcastTo ⟨2, ![a, b]⟩ (shapeCast ⟨2, ![a, 1]⟩ (multiReduction .maximumf [1] ⟨1, ![a]⟩ v accM h hφ hM) hc) hb)))
        (broadcastTo ⟨2, ![a, b]⟩ (shapeCast ⟨2, ![a, 1]⟩
          (multiReduction .add [1] ⟨1, ![a]⟩
            (exp (subf v (broadcastTo ⟨2, ![a, b]⟩ (shapeCast ⟨2, ![a, 1]⟩ (multiReduction .maximumf [1] ⟨1, ![a]⟩ v accM h hφ hM) hc) hb)))
            accS h hφ' hS) hc) hb) (ix2 r c)
      = share (Ideal.ofBits .f32 accM) (fun k => v (ix2 r k)) c := by
  have hmx : ∀ (r' : Fin a) (c' : Fin b),
      broadcastTo ⟨2, ![a, b]⟩ (shapeCast ⟨2, ![a, 1]⟩ (multiReduction .maximumf [1] ⟨1, ![a]⟩ v accM h hφ hM) hc) hb (ix2 r' c')
        = rowMax (Ideal.ofBits .f32 accM) (fun k => v (ix2 r' k)) := fun r' c' =>
    (Keepdims.broadcastTo_a1_ab_apply _ hb r' c').trans
      ((Keepdims.shapeCast_a_a1_apply _ hc r' 0).trans (RowMax.rowMax_apply v accM h hφ hM r'))
  have hp : ∀ (r' : Fin a) (c' : Fin b),
      exp (subf v (broadcastTo ⟨2, ![a, b]⟩ (shapeCast ⟨2, ![a, 1]⟩ (multiReduction .maximumf [1] ⟨1, ![a]⟩ v accM h hφ hM) hc) hb)) (ix2 r' c')
        = Ideal.exp (v (ix2 r' c') - rowMax (Ideal.ofBits .f32 accM) (fun k => v (ix2 r' k))) := fun r' c' =>
    congrArg (fun x => Ideal.exp (v (ix2 r' c') - x)) (hmx r' c')
  refine (divf_apply _ _ _).trans ?_
  rw [hp r c, Keepdims.broadcastTo_a1_ab_apply, Keepdims.rowSumKeep_apply]
  unfold share
  exact congrArg (Ideal.div _) (Finset.sum_congr rfl fun k _ => hp r k)

end RowSoftmax

end
-- ==== Proof.AttnSpec.lean ====
/-
  Multi-head attention on the extended reals, stated once for both programs.

  Queries, keys and values are arrays q, k, v of shape [2, 16, 2048, 64] (batch, head, position, feature). For a table
  s of scores (batch, head, query position, key position) the attention weights are the softmax of each row of
  scores: the row's share at key position j is exp (s j - M) over the sum of the exp (s j' - M), M the row's maximum
  (a fold of max from the accumulator value -inf). The output at (batch, head, position i, feature d) is the sum over
  the key positions j of weight (i, j) times v (j, d). The plain score of (i, j) is the sum over the 64 features of
  q (i, d) * k (j, d).

  The law that joins the two programs: scaling every query by c before the products is dividing the plain score by s,
  when c is the real 1/8 and s the real 8. A nonnegative real factor distributes over any sum of extended reals, so
  nothing has to be finite.
-/
import proofs.«164298_j55353538511182_2_alg».proof.Proof.LibRowSoftmax

noncomputable section

namespace Cert.Attn

open Idealize.ShloMosaic Idealize.ShloMosaic.ValueIdx

abbrev Sqkv : Shape := ⟨4, ![2, 16, 2048, 64]⟩
abbrev Sw : Shape := ⟨4, ![2, 16, 2048, 2048]⟩

/-- The accumulator value of a row maximum: the pattern of -inf. -/
def negInf : EReal := Ideal.ofBits .f32 0xFF800000#32

/-- The plain score of query position i against key position j in one head: the sum over the features. -/
def dotScore (q k : Sqkv.Idx → EReal) (b : Fin 2) (h : Fin 16) (i j : Fin 2048) : EReal :=
  ∑ d : Fin 64, q (ix4 b h i d) * k (ix4 b h j d)

/-- The attention weights of a table of scores: the softmax of each row. -/
def softmaxRows (s : Fin 2 → Fin 16 → Fin 2048 → Fin 2048 → EReal) : Sw.Idx → EReal :=
  fun i => RowSoftmax.share negInf (fun j => s (i 0) (i 1) (i 2) j) (i 3)

/-- The values weighted: at (b, h, i, d) the sum over the key positions j of weight (i, j) times v (j, d). -/
def weighted (a : Sw.Idx → EReal) (v : Sqkv.Idx → EReal) : Sqkv.Idx → EReal :=
  fun i => ∑ j : Fin 2048, a (ix4 (i 0) (i 1) (i 2) j) * v (ix4 (i 0) (i 1) j (i 3))

end Cert.Attn

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.LibDotRows.lean ====
/-
  A matrix times the transpose of a matrix, read at an entry, on the extended reals.

  For the dimension numbers "rows x contraction times columns x contraction" (`DotDims.transposedRhs M K N`: the left
  operand [M, K] and the right operand [N, K] both contracted on their second axis, no batch axis: the product of the
  left operand with the transpose of the right one, as a linear layer `x @ W.T` writes it), both a `tpu.matmul` into
  the zero accumulator and the host's `dot_general` are, at an output entry (r, c), the plain sum

      sum over k < K of  l (r, k) * w (c, k)

  of products of extended reals: no rounding, no chunking and no accumulator are left. Nothing is assumed finite: the
  statement is about one and the same finite sum of products, only re-indexed from the contraction's own index type
  to `Fin K`. Generic in the three extents, so one statement serves a block of rows against a block of rows and the
  whole matrices. The twin of the plain product (left [M, K], right [K, N]) for a transposed right operand.
-/
import Idealize.ShloMosaic.PureOps.Ideal.Laws
import Idealize.ShloMosaic.Lib.ValueIdx

noncomputable section

namespace DotRows

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ =>
    show ((DotDims.transposedRhs M K N).lhsIdx j _ 0).val = (j 0).val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ =>
    exact ((DotDims.transposedRhs M K N).lhsIdx_val_of_single rfl j _).trans hk

/-- The right operand's index at output entry `j` and contraction position `k` is (column of `j`, `k`): the right
    operand is read along its own row, the row the output's column names. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ =>
    show ((DotDims.transposedRhs M K N).rhsIdx j _ 0).val = (j 1).val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ =>
    exact ((DotDims.transposedRhs M K N).rhsIdx_val_of_single rfl j _).trans hk

/-- The contraction's sum, over its own index type, is the sum over `k < K` of `l (row, k) * w (column, k)`. -/
theorem sum_eq (l : (⟨2, ![M, K]⟩ : Shape).Idx → EReal) (w : (⟨2, ![N, K]⟩ : Shape).Idx → EReal)
    (j : (⟨2, ![M, N]⟩ : Shape).Idx) :
    ∑ q : (DotDims.transposedRhs M K N).contr.Idx,
        l ((DotDims.transposedRhs M K N).lhsIdx j q) * w ((DotDims.transposedRhs M K N).rhsIdx j q)
      = ∑ k : Fin K, l (ix2 (j 0) k) * w (ix2 (j 1) k) := by
  rw [← Equiv.sum_comp (contrEquiv1 (DotDims.transposedRhs M K N) K rfl rfl).symm]
  refine Finset.sum_congr rfl fun k _ => ?_
  rw [lhsIdx_eq, rhsIdx_eq]
  rfl

/-- A `tpu.matmul` into the zero accumulator, at an entry: the plain sum of products along the two rows. -/
theorem matmul_zero_apply {φ₁ φ₂ : FTy} (prec : Option ContractPrecision)
    (l : FVec Ideal ⟨2, ![M, K]⟩ φ₁) (w : FVec Ideal ⟨2, ![N, K]⟩ φ₂) (j : (⟨2, ![M, N]⟩ : Shape).Idx) :
    FloatOps.matmul (DotDims.transposedRhs M K N) prec l w (constant ⟨2, ![M, N]⟩ .f32 0x00000000#32) j
      = ∑ k : Fin K, (l (ix2 (j 0) k) : EReal) * w (ix2 (j 1) k) :=
  (Ideal.matmul_constant_zero_apply (DotDims.transposedRhs M K N) prec l w j).trans (sum_eq M K N l w j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (w : FVec Ideal ⟨2, ![N, K]⟩ φ₂) (j : (⟨2, ![M, N]⟩ : Shape).Idx) :
    FloatOps.dotGeneral (DotDims.transposedRhs M K N) prec sched l w j
      = ∑ k : Fin K, (l (ix2 (j 0) k) : EReal) * w (ix2 (j 1) k) :=
  (Ideal.dotGeneral_apply (DotDims.transposedRhs M K N) prec sched l w j).trans (sum_eq M K N l w j)

end DotRows

end
-- ==== Proof.KernelBodies.lean ====
/-
  What the two kernel bodies compute, entry by entry, on the extended reals.

  The projection body takes a block of 512 rows x of the flattened input, a transposed weight matrix w [1024, 1024]
  and a bias row b [1, 1024]; each of its three results is, at (r, e), the sum over d of x (r, d) * w (d, e) plus
  b (0, e), the first of them scaled by the literal 0.125 as well. The casts to a narrower format are the identity here.

  The attention body takes a block of 512 query rows and the 2048 key and value rows of one head. Its scores at (r, j)
  are the sum over the 64 features of q (r, d) * k (j, d); its weights are the softmax of each row of scores; its output
  at (r, d) is the sum over j of weight (r, j) * v (j, d).
-/
import proofs.«164298_j55353538511182_2_alg».proof.Proof.Gen.KernelIdeal.Skeleton
import proofs.«164298_j55353538511182_2_alg».proof.Proof.AttnSpec
import proofs.«164298_j55353538511182_2_alg».proof.Proof.LibPlainDot
import proofs.«164298_j55353538511182_2_alg».proof.Proof.LibDotRows
import Idealize.ShloMosaic.Lib.ValueLayout
import Idealize.ShloMosaic.Lib.Pipeline.Value

noncomputable section

namespace Cert.KernelIdeal.Bodies

open Cert.KernelIdeal Cert.KernelIdeal.Gen Idealize.ShloMosaic Idealize.ShloMosaic.ValueIdx

/-- One projection at (r, e): the row of the input block against the column of the transposed weights, plus the bias. -/
def projAt (x0 : S512x1024.Idx → EReal) (w : S1024x1024.Idx → EReal) (b : S1x1024.Idx → EReal) (r : Fin 512) (e : Fin 1024) : EReal :=
  (∑ d : Fin 1024, x0 (ix2 r d) * w (ix2 d e)) + b (ix2 (0 : Fin 1) e)

theorem pay3_apply (x0 : Vec Ideal S512x1024 .f32) (w : Vec Ideal S1024x1024 .bf16) (b : Vec Ideal S1x1024 .f32)
    (r : Fin 512) (e : Fin 1024) : k0_pay3 (F := Ideal) x0 w b (ix2 r e) = projAt x0 w b r e := by
  unfold k0_pay3 k0_pay1 projAt
  refine congrArg₂ (fun a b : EReal => a + b) ?_ ?_
  · refine (PlainDot.matmul_zero_apply 512 1024 1024 none _ _ (ix2 r e)).trans ?_
    refine Finset.sum_congr rfl fun d _ => ?_
    rw [shapeCast_self, shapeCast_self]
    rfl
  · rw [shapeCast_self]
    exact broadcastTo_1b_ab_apply _ _ r e

theorem pay4_apply (x0 : Vec Ideal S512x1024 .f32) (w : Vec Ideal S1024x1024 .bf16) (b : Vec Ideal S1x1024 .f32)
    (r : Fin 512) (e : Fin 1024) : k0_pay4 (F := Ideal) x0 w b (ix2 r e) = projAt x0 w b r e := by
  unfold k0_pay4 k0_pay1 projAt
  refine congrArg₂ (fun a b : EReal => a + b) ?_ ?_
  · refine (PlainDot.matmul_zero_apply 512 1024 1024 none _ _ (ix2 r e)).trans ?_
    refine Finset.sum_congr rfl fun d _ => ?_
    rw [shapeCast_self, shapeCast_self]
    rfl
  · rw [shapeCast_self]
    exact broadcastTo_1b_ab_apply _ _ r e

theorem pay2_apply (x0 : Vec Ideal S512x1024 .f32) (w : Vec Ideal S1024x1024 .bf16) (b : Vec Ideal S1x1024 .f32)
    (r : Fin 512) (e : Fin 1024) :
    k0_pay2 (F := Ideal) x0 w b (ix2 r e) = projAt x0 w b r e * Ideal.ofBits .f32 0x3E000000#32 := by
  unfold k0_pay2 k0_pay1 projAt
  refine congrArg₂ (fun a b : EReal => a * b) (congrArg₂ (fun a b : EReal => a + b) ?_ ?_) rfl
  · refine (PlainDot.matmul_zero_apply 512 1024 1024 none _ _ (ix2 r e)).trans ?_
    refine Finset.sum_congr rfl fun d _ => ?_
    rw [shapeCast_self, shapeCast_self]
    rfl
  · rw [shapeCast_self]
    exact broadcastTo_1b_ab_apply _ _ r e

/-- The scores of query row r of the block against key row j. -/
def scoreAt (x0 : S1x512x64.Idx → EReal) (x2 : S1x2048x64.Idx → EReal) (r : Fin 512) (j : Fin 2048) : EReal :=
  ∑ d : Fin 64, x0 (ix3 (0 : Fin 1) r d) * x2 (ix3 (0 : Fin 1) j d)

/-- The weight of query row r of the block on key row j: the share of j in the softmax of r's scores. -/
def weightAt (x0 : S1x512x64.Idx → EReal) (x2 : S1x2048x64.Idx → EReal) (r : Fin 512) (j : Fin 2048) : EReal :=
  RowSoftmax.share Cert.Attn.negInf (fun j' => scoreAt x0 x2 r j') j

theorem pay1_apply (x0 : Vec Ideal S1x512x64 .bf16) (x2 : Vec Ideal S1x2048x64 .bf16) (r : Fin 512) (j : Fin 2048) :
    k1_pay1 (F := Ideal) x0 x2 (ix2 r j) = weightAt x0 x2 r j := by
  unfold k1_pay1 weightAt Cert.Attn.negInf
  refine (RowSoftmax.softmax_rows_apply (a := 512) (b := 2048) _ 0xFF800000#32 0x00000000#32 reduces_S512x2048_S512
    (.inl rfl) (.inl rfl) rfl rfl shapeCasts_S512_S512x1 broadcasts_S512x1_S512x2048 r j).trans ?_
  refine congrArg (fun s => RowSoftmax.share (Ideal.ofBits .f32 0xFF800000#32) s j) (funext fun j' => ?_)
  refine (DotRows.matmul_zero_apply 512 64 2048 none _ _ (ix2 r j')).trans ?_
  exact Finset.sum_congr rfl fun d _ =>
    congrArg₂ (· * ·) (shapeCast_1ab_ab_apply x0 _ r d) (shapeCast_1ab_ab_apply x2 _ j' d)

theorem pay2w_apply (x0 : Vec Ideal S1x512x64 .bf16) (x2 : Vec Ideal S1x2048x64 .bf16) (u : Fin 1) (r : Fin 512) (j : Fin 2048) :
    k1_pay2 (F := Ideal) x0 x2 (ix3 u r j) = weightAt x0 x2 r j := by
  unfold k1_pay2
  exact (shapeCast_ab_1ab_apply _ _ u r j).trans (pay1_apply x0 x2 r j)

theorem pay3o_apply (x0 : Vec Ideal S1x512x64 .bf16) (x2 x4 : Vec Ideal S1x2048x64 .bf16) (u : Fin 1) (r : Fin 512) (d : Fin 64) :
    k1_pay3 (F := Ideal) x0 x2 x4 (ix3 u r d) = ∑ j : Fin 2048, weightAt x0 x2 r j * x4 (ix3 (0 : Fin 1) j d) := by
  unfold k1_pay3
  refine (shapeCast_ab_1ab_apply _ _ u r d).trans ?_
  refine (PlainDot.matmul_zero_apply 512 2048 64 none _ _ (ix2 r d)).trans ?_
  exact Finset.sum_congr rfl fun j _ =>
    congrArg₂ (· * ·) (pay1_apply x0 x2 r j) (shapeCast_1ab_ab_apply x4 _ j d)

end Cert.KernelIdeal.Bodies

end
-- ==== Proof.ProjArrays.lean ====
/-
  The projection call's three result arrays, each as one function of the arrays the call finds at its entry.

  The call runs over 8 grid points; point t reads rows 512 t .. 512 t + 511 of the flattened input [4096, 1024], the
  whole transposed weights and the whole bias rows, and writes rows 512 t .. 512 t + 511 of each result. A result
  entry depends only on its own row of the input, so the blocks are restrictions of one whole-array function, and
  the 8 blocks cover the 4096 rows.
-/
import proofs.«164298_j55353538511182_2_alg».proof.Proof.Gen.KernelIdeal.Frame
import proofs.«164298_j55353538511182_2_alg».proof.Proof.KernelBodies

set_option maxRecDepth 16384

noncomputable section

namespace Cert.KernelIdeal.ProjArrays

open Cert.KernelIdeal Cert.KernelIdeal.Gen Cert.KernelIdeal.Bodies
open Idealize.ShloMosaic Idealize.ShloMosaic.TcCoe Idealize.ShloMosaic.ValueIdx
open Idealize.SL Idealize.SL.Sem
open Idealize.ShloMosaic.Pipeline (Dat Cfg Window)

/-- One projection over all 4096 rows: at (r, e) the sum over d of x (r, d) * w (d, e) plus b (0, e). -/
def projRows (xf : S4096x1024.Idx → EReal) (w : S1024x1024.Idx → EReal) (b : S1x1024.Idx → EReal) : S4096x1024.Idx → EReal :=
  fun i => (∑ d : Fin 1024, xf (ix2 (i 0) d) * w (ix2 d (i 1))) + b (ix2 (0 : Fin 1) (i 1))

theorem hz2 : (![0, 0] : Fin 2 → Nat) = fun _ => 0 := funext fun a => by fin_cases a <;> rfl

/-- The printed index maps over the grid: the input rows and the three results move with the point, the weights and
    the bias rows stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

variable (V : (c : Dev nD) → (b : Ref sig .tc) → Buf (Elt Ideal) ((c : Thread nD τ).loc b))

/-- The input block of point t at (r, d) is row 512 t + r of the flattened input. -/
theorem xblock_apply (c : Dev nD) (t : Fin cfg0.N) (r : Fin 512) (d : Fin 1024) (R : Fin 4096) (hR : R.val = t.val * 512 + r.val) :
    iblk0 V c 0 t (ix2 r d) = V c main_v9 (ix2 R d) := by
  obtain ⟨e0, e1, -⟩ := idx_facts t
  show V c main_v9 (((cfg0.win 0).blk t).view.emb (ix2 r d)) = V c main_v9 (ix2 R d)
  refine congrArg (V c main_v9) (funext fun a => Fin.ext ?_)
  match a with
  | ⟨0, _⟩ => show win0_0.index t (0 : Fin 2) * 512 + 1 * r.val = R.val; omega
  | ⟨1, _⟩ => show win0_0.index t (1 : Fin 2) * 1024 + 1 * d.val = d.val; omega

/-- The query weights' block at every point is the whole transposed matrix. -/
theorem w1block_apply (c : Dev nD) (t : Fin cfg0.N) (y : S1024x1024.Idx) : iblk0 V c 1 t y = V c main_v1 y := by
  have h := idx_facts t
  show V c main_v1 (((cfg0.win 1).blk t).view.emb y) = V c main_v1 y
  refine congrArg (V c main_v1) (funext fun a => Fin.ext ?_)
  match a with
  | ⟨0, _⟩ => show win0_1.index t (0 : Fin 2) * S1024x1024.size 0 + 1 * (y 0).val = (y 0).val; have h0 : win0_1.index t (0 : Fin 2) = 0 := by omega
              rw [h0]; omega
  | ⟨1, _⟩ => show win0_1.index t (1 : Fin 2) * S1024x1024.size 1 + 1 * (y 1).val = (y 1).val; have h1 : win0_1.index t (1 : Fin 2) = 0 := by omega
              rw [h1]; omega

/-- The key weights' block at every point is the whole transposed matrix. -/
theorem w3block_apply (c : Dev nD) (t : Fin cfg0.N) (y : S1024x1024.Idx) : iblk0 V c 3 t y = V c main_v3 y := by
  have h := idx_facts t
  show V c main_v3 (((cfg0.win 3).blk t).view.emb y) = V c main_v3 y
  refine congrArg (V c main_v3) (funext fun a => Fin.ext ?_)
  match a with
  | ⟨0, _⟩ => show win0_3.index t (0 : Fin 2) * S1024x1024.size 0 + 1 * (y 0).val = (y 0).val; have h0 : win0_3.index t (0 : Fin 2) = 0 := by omega
              rw [h0]; omega
  | ⟨1, _⟩ => show win0_3.index t (1 : Fin 2) * S1024x1024.size 1 + 1 * (y 1).val = (y 1).val; have h1 : win0_3.index t (1 : Fin 2) = 0 := by omega
              rw [h1]; omega

/-- The value weights' block at every point is the whole transposed matrix. -/
theorem w5block_apply (c : Dev nD) (t : Fin cfg0.N) (y : S1024x1024.Idx) : iblk0 V c 5 t y = V c main_v5 y := by
  have h := idx_facts t
  show V c main_v5 (((cfg0.win 5).blk t).view.emb y) = V c main_v5 y
  refine congrArg (V c main_v5) (funext fun a => Fin.ext ?_)
  match a with
  | ⟨0, _⟩ => show win0_5.index t (0 : Fin 2) * S1024x1024.size 0 + 1 * (y 0).val = (y 0).val; have h0 : win0_5.index t (0 : Fin 2) = 0 := by omega
              rw [h0]; omega
  | ⟨1, _⟩ => show win0_5.index t (1 : Fin 2) * S1024x1024.size 1 + 1 * (y 1).val = (y 1).val; have h1 : win0_5.index t (1 : Fin 2) = 0 := by omega
              rw [h1]; omega

/-- The query bias' block at every point is the whole row. -/
theorem b2block_apply (c : Dev nD) (t : Fin cfg0.N) (y : S1x1024.Idx) : iblk0 V c 2 t y = V c main_v6 y := by
  have h := idx_facts t
  show V c main_v6 (((cfg0.win 2).blk t).view.emb y) = V c main_v6 y
  refine congrArg (V c main_v6) (funext fun a => Fin.ext ?_)
  match a with
  | ⟨0, _⟩ => show win0_2.index t (0 : Fin 2) * S1x1024.size 0 + 1 * (y 0).val = (y 0).val; have h0 : win0_2.index t (0 : Fin 2) = 0 := by omega
              rw [h0]; omega
  | ⟨1, _⟩ => show win0_2.index t (1 : Fin 2) * S1x1024.size 1 + 1 * (y 1).val = (y 1).val; have h1 : win0_2.index t (1 : Fin 2) = 0 := by omega
              rw [h1]; omega

/-- The key bias' block at every point is the whole row. -/
theorem b4block_apply (c : Dev nD) (t : Fin cfg0.N) (y : S1x1024.Idx) : iblk0 V c 4 t y = V c main_v7 y := by
  have h := idx_facts t
  show V c main_v7 (((cfg0.win 4).blk t).view.emb y) = V c main_v7 y
  refine congrArg (V c main_v7) (funext fun a => Fin.ext ?_)
  match a with
  | ⟨0, _⟩ => show win0_4.index t (0 : Fin 2) * S1x1024.size 0 + 1 * (y 0).val = (y 0).val; have h0 : win0_4.index t (0 : Fin 2) = 0 := by omega
              rw [h0]; omega
  | ⟨1, _⟩ => show win0_4.index t (1 : Fin 2) * S1x1024.size 1 + 1 * (y 1).val = (y 1).val; have h1 : win0_4.index t (1 : Fin 2) = 0 := by omega
              rw [h1]; omega

/-- The value bias' block at every point is the whole row. -/
theorem b6block_apply (c : Dev nD) (t : Fin cfg0.N) (y : S1x1024.Idx) : iblk0 V c 6 t y = V c main_v8 y := by
  have h := idx_facts t
  show V c main_v8 (((cfg0.win 6).blk t).view.emb y) = V c main_v8 y
  refine congrArg (V c main_v8) (funext fun a => Fin.ext ?_)
  match a with
  | ⟨0, _⟩ => show win0_6.index t (0 : Fin 2) * S1x1024.size 0 + 1 * (y 0).val = (y 0).val; have h0 : win0_6.index t (0 : Fin 2) = 0 := by omega
              rw [h0]; omega
  | ⟨1, _⟩ => show win0_6.index t (1 : Fin 2) * S1x1024.size 1 + 1 * (y 1).val = (y 1).val; have h1 : win0_6.index t (1 : Fin 2) = 0 := by omega
              rw [h1]; omega

/-- An index of result 7's array is in point t's block iff each coordinate is in the block's range on its axis. -/
theorem mem_blk7 (t : Fin cfg0.N) (i : S4096x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v10_0).slice (win0_7.rect t)).set ↔ _
  rw [View.set_slice_whole, Rect.mem_set_unit]
  exact Iff.rfl

/-- What point t writes back to result 7 is block t of the whole-array function. -/
theorem flushed7_eq (c : Dev nD) (t : Fin cfg0.N) :
    (dat0 V c).flushed 7 t = ((cfg0.win 7).blk t).view.read (Elt Ideal)
      (fun i => projRows (V c main_v9) (V c main_v1) (V c main_v6) i * Ideal.ofBits .f32 0x3E000000#32) := by
  show (cfg0.win 7).cut (grid0.coords t) ((dat0 V c).after 7 t) = _
  rw [after0_7]
  unfold out0_7
  rw [View.canon_unit_zero hz2]
  simp only [View.ld_unit_zero (S := S512x1024) hz2, View.ld_unit_zero (S := S1024x1024) hz2, View.ld_unit_zero (S := S1x1024) hz2]
  funext j
  obtain ⟨r, e, rfl⟩ : ∃ (r : Fin 512) (e : Fin 1024), j = ix2 r e := ⟨j 0, j 1, eq_ix2 j⟩
  have ht : t.val < 8 := t.isLt
  have hf := idx_facts t
  have hemb : ((cfg0.win 7).blk t).view.emb (ix2 r e) = ix2 (⟨t.val * 512 + r.val, by have := r.isLt; omega⟩ : Fin 4096) e := by
    funext a; apply Fin.ext
    match a with
    | ⟨0, _⟩ => show win0_7.index t (0 : Fin 2) * 512 + 1 * r.val = t.val * 512 + r.val; omega
    | ⟨1, _⟩ => show win0_7.index t (1 : Fin 2) * 1024 + 1 * e.val = e.val; omega
  refine (pay2_apply (iblk0 V c 0 t) (iblk0 V c 1 t) (iblk0 V c 2 t) r e).trans ?_
  show _ = (fun i => projRows (V c main_v9) (V c main_v1) (V c main_v6) i * Ideal.ofBits .f32 0x3E000000#32) (((cfg0.win 7).blk t).view.emb (ix2 r e))
  rw [hemb]
  unfold projAt projRows
  refine congrArg (fun z : EReal => z * Ideal.ofBits .f32 0x3E000000#32) ?_
  refine congrArg₂ (fun a b : EReal => a + b) (Finset.sum_congr rfl fun d _ => ?_) ?_
  · exact congrArg₂ (fun a b : EReal => a * b) (xblock_apply V c t r d _ rfl) (w1block_apply V c t (ix2 d e))
  · exact b2block_apply V c t (ix2 (0 : Fin 1) e)

/-- The 8 blocks cover the 4096 rows. -/
theorem cover7 (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  have hq : (i 0).val / 512 < 8 := by omega
  obtain ⟨t, ht⟩ : ∃ t : Fin cfg0.N, t.val = (i 0).val / 512 := ⟨⟨(i 0).val / 512, hq⟩, rfl⟩
  refine ⟨t, flush0_7 t, ?_⟩
  rw [mem_blk7]
  have hf := idx_facts t
  intro a
  match a with
  | ⟨0, _⟩ =>
    show win0_7.index t (0 : Fin 2) * 512 ≤ (i 0).val ∧ (i 0).val < win0_7.index t (0 : Fin 2) * 512 + 512
    omega
  | ⟨1, _⟩ =>
    show win0_7.index t (1 : Fin 2) * 1024 ≤ (i 1).val ∧ (i 1).val < win0_7.index t (1 : Fin 2) * 1024 + 1024
    omega

/-- Result 7's array after the call. -/
theorem final7 (c : Dev nD) : (dat0 V c).arrAt 7 cfg0.N
    = (fun i => projRows (V c main_v9) (V c main_v1) (V c main_v6) i * Ideal.ofBits .f32 0x3E000000#32) :=
  (dat0 V c).arrAt_eq_of_cover 7 _ (fun t _ => flushed7_eq V c t) (cover7)

/-- An index of result 8's array is in point t's block iff each coordinate is in the block's range on its axis. -/
theorem mem_blk8 (t : Fin cfg0.N) (i : S4096x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v10_1).slice (win0_8.rect t)).set ↔ _
  rw [View.set_slice_whole, Rect.mem_set_unit]
  exact Iff.rfl

/-- What point t writes back to result 8 is block t of the whole-array function. -/
theorem flushed8_eq (c : Dev nD) (t : Fin cfg0.N) :
    (dat0 V c).flushed 8 t = ((cfg0.win 8).blk t).view.read (Elt Ideal)
      (fun i => projRows (V c main_v9) (V c main_v3) (V c main_v7) i) := by
  show (cfg0.win 8).cut (grid0.coords t) ((dat0 V c).after 8 t) = _
  rw [after0_8]
  unfold out0_8
  rw [View.canon_unit_zero hz2]
  simp only [View.ld_unit_zero (S := S512x1024) hz2, View.ld_unit_zero (S := S1024x1024) hz2, View.ld_unit_zero (S := S1x1024) hz2]
  funext j
  obtain ⟨r, e, rfl⟩ : ∃ (r : Fin 512) (e : Fin 1024), j = ix2 r e := ⟨j 0, j 1, eq_ix2 j⟩
  have ht : t.val < 8 := t.isLt
  have hf := idx_facts t
  have hemb : ((cfg0.win 8).blk t).view.emb (ix2 r e) = ix2 (⟨t.val * 512 + r.val, by have := r.isLt; omega⟩ : Fin 4096) e := by
    funext a; apply Fin.ext
    match a with
    | ⟨0, _⟩ => show win0_8.index t (0 : Fin 2) * 512 + 1 * r.val = t.val * 512 + r.val; omega
    | ⟨1, _⟩ => show win0_8.index t (1 : Fin 2) * 1024 + 1 * e.val = e.val; omega
  refine (pay3_apply (iblk0 V c 0 t) (iblk0 V c 3 t) (iblk0 V c 4 t) r e).trans ?_
  show _ = (fun i => projRows (V c main_v9) (V c main_v3) (V c main_v7) i) (((cfg0.win 8).blk t).view.emb (ix2 r e))
  rw [hemb]
  unfold projAt projRows
  refine congrArg₂ (fun a b : EReal => a + b) (Finset.sum_congr rfl fun d _ => ?_) ?_
  · exact congrArg₂ (fun a b : EReal => a * b) (xblock_apply V c t r d _ rfl) (w3block_apply V c t (ix2 d e))
  · exact b4block_apply V c t (ix2 (0 : Fin 1) e)

/-- The 8 blocks cover the 4096 rows. -/
theorem cover8 (i : S4096x1024.Idx) : ∃ t : Fin cfg0.N, (cfg0.win 8).flush t = true ∧ i ∈ ((cfg0.win 8).blk t).view.set := by
  have hi0 : (i 0).val < 4096 := (i 0).isLt
  have hi1 : (i 1).val < 1024 := (i 1).isLt
  have hq : (i 0).val / 512 < 8 := by omega
  obtain ⟨t, ht⟩ : ∃ t : Fin cfg0.N, t.val = (i 0).val / 512 := ⟨⟨(i 0).val / 512, hq⟩, rfl⟩
  refine ⟨t, flush0_8 t, ?_⟩
  rw [mem_blk8]
  have hf := idx_facts t
  intro a
  match a with
  | ⟨0, _⟩ =>
    show win0_8.index t (0 : Fin 2) * 512 ≤ (i 0).val ∧ (i 0).val < win0_8.index t (0 : Fin 2) * 512 + 512
    omega
  | ⟨1, _⟩ =>
    show win0_8.index t (1 : Fin 2) * 1024 ≤ (i 1).val ∧ (i 1).val < win0_8.index t (1 : Fin 2) * 1024 + 1024
    omega

/-- Result 8's array after the call. -/
theorem final8 (c : Dev nD) : (dat0 V c).arrAt 8 cfg0.N
    = (fun i => projRows (V c main_v9) (V c main_v3) (V c main_v7) i) :=
  (dat0 V c).arrAt_eq_of_cover 8 _ (fun t _ => flushed8_eq V c t) (cover8)

/-- An index of result 9's array is in point t's block iff each coordinate is in the block's range on its axis. -/
theorem mem_blk9 (t : Fin cfg0.N) (i : S4096x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v10_2).slice (win0_9.rect t)).set ↔ _
  rw [View.set_slice_whole, Rect.mem_set_unit]
  exact Iff.rfl

/-- What point t writes back to result 9 is block t of the whole-array function. -/
theorem flushed9_eq (c : Dev nD) (t : Fin cfg0.N) :
    (dat0 V c).flushed 9 t = ((cfg0.win 9).blk t).view.read (Elt Ideal)
      (fun i => projRows (V c main_v9) (V c main_v5) (V c main_v8) i) := by
  show (cfg0.win 9).cut (grid0.coords t) ((dat0 V c).after 9 t) = _
  rw [after0_9]
  unfold out0_9
  rw [View.canon_unit_zero hz2]
  simp only [View.ld_unit_zero (S := S512x1024) hz2, View.ld_unit_zero (S := S1024x1024) hz2, View.ld_unit_zero (S := S1x1024) hz2]
  funext j
  obtain ⟨r, e, rfl⟩ : ∃ (r : Fin 512) (e : Fin 1024), j = ix2 r e := ⟨j 0, j 1, eq_ix2 j⟩
  have ht : t.val < 8 := t.isLt
  have hf := idx_facts t
  have hemb : ((cfg0.win 9).blk t).view.emb (ix2 r e) = ix2 (⟨t.val * 512 + r.val, by have := r.isLt; omega⟩ : Fin 4096) e := by
    funext a; apply Fin.ext
    match a with
    | ⟨0, _⟩ => show win0_9.index t (0 : Fin 2) * 512 + 1 * r.val = t.val * 512 + r.val; omega
    | ⟨1, _⟩ => show win0_9.index t (1 : Fin 2) * 1024 + 1 * e.val = e.val; omega
  refine (pay4_apply (iblk0 V c 0 t) (iblk0 V c 5 t) (iblk0 V c 6 t) r e).trans ?_
  show _ = (fun i => projRows (V c main_v9) (V c main_v5) (V c main_v8) i) (((cfg0.win 9).blk t).view.emb (ix2 r e))
  rw [hemb]
  unfold projAt projRows
  refine congrArg₂ (fun a b : EReal => a + b) (Finset.sum_congr rfl fun d _ => ?_) ?_
  · exact congrArg₂ (fun a b : EReal => a * b) (xblock_apply V c t r d _ rfl) (w5block_apply V c t (ix2 d e))
  · exact b6block_apply V c t (ix2 (0 : Fin 1) e)

/-- The 8 blocks cover the 4096 rows. -/
theorem cover9 (i : S4096x1024.Idx) : ∃ t : Fin cfg0.N, (cfg0.win 9).flush t = true ∧ i ∈ ((cfg0.win 9).blk t).view.set := by
  have hi0 : (i 0).val < 4096 := (i 0).isLt
  have hi1 : (i 1).val < 1024 := (i 1).isLt
  have hq : (i 0).val / 512 < 8 := by omega
  obtain ⟨t, ht⟩ : ∃ t : Fin cfg0.N, t.val = (i 0).val / 512 := ⟨⟨(i 0).val / 512, hq⟩, rfl⟩
  refine ⟨t, flush0_9 t, ?_⟩
  rw [mem_blk9]
  have hf := idx_facts t
  intro a
  match a with
  | ⟨0, _⟩ =>
    show win0_9.index t (0 : Fin 2) * 512 ≤ (i 0).val ∧ (i 0).val < win0_9.index t (0 : Fin 2) * 512 + 512
    omega
  | ⟨1, _⟩ =>
    show win0_9.index t (1 : Fin 2) * 1024 ≤ (i 1).val ∧ (i 1).val < win0_9.index t (1 : Fin 2) * 1024 + 1024
    omega

/-- Result 9's array after the call. -/
theorem final9 (c : Dev nD) : (dat0 V c).arrAt 9 cfg0.N
    = (fun i => projRows (V c main_v9) (V c main_v5) (V c main_v8) i) :=
  (dat0 V c).arrAt_eq_of_cover 9 _ (fun t _ => flushed9_eq V c t) (cover9)

end Cert.KernelIdeal.ProjArrays

end
-- ==== Proof.AttnArrays.lean ====
/-
  The attention call's two result arrays, each as one function of the arrays the call finds at its entry.

  The call runs over 32 x 4 grid points; point t = 4 H + p reads query rows 512 p .. 512 p + 511 of head H and all 2048
  key and value rows of head H, and writes rows 512 p .. 512 p + 511 of head H of the weights [32, 2048, 2048] and of
  the output [32, 2048, 64]. A result entry depends only on its own query row and its own head's keys and values, so
  the blocks are restrictions of one whole-array function, and the 128 blocks cover the 32 x 2048 rows.
-/
import proofs.«164298_j55353538511182_2_alg».proof.Proof.Gen.KernelIdeal.Frame
import proofs.«164298_j55353538511182_2_alg».proof.Proof.KernelBodies

set_option maxRecDepth 16384

noncomputable section

namespace Cert.KernelIdeal.AttnArrays

open Cert.KernelIdeal Cert.KernelIdeal.Gen Cert.KernelIdeal.Bodies
open Idealize.ShloMosaic Idealize.ShloMosaic.TcCoe Idealize.ShloMosaic.ValueIdx
open Idealize.SL Idealize.SL.Sem
open Idealize.ShloMosaic.Pipeline (Dat Cfg Window)

/-- The weights over all 32 heads: at (H, i, j) the share of key row j in the softmax of query row i's scores. -/
def weights3 (Q K : S32x2048x64.Idx → EReal) : S32x2048x2048.Idx → EReal :=
  fun i => RowSoftmax.share Cert.Attn.negInf (fun j' => ∑ d : Fin 64, Q (ix3 (i 0) (i 1) d) * K (ix3 (i 0) j' d)) (i 2)

/-- The output over all 32 heads: at (H, i, d) the sum over key rows j of weight (H, i, j) times value (H, j, d). -/
def out3 (Q K Vv : S32x2048x64.Idx → EReal) : S32x2048x64.Idx → EReal :=
  fun i => ∑ j : Fin 2048, weights3 Q K (ix3 (i 0) (i 1) j) * Vv (ix3 (i 0) j (i 2))

theorem hz3 : (![0, 0, 0] : Fin 3 → Nat) = fun _ => 0 := funext fun a => by fin_cases a <;> rfl

/-- The printed index maps over the grid: point t is head t / 4, query block t % 4; keys and values take the whole head. -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0
    ∧ win1_4.index t (0 : Fin 3) = t.val / 4 ∧ win1_4.index t (1 : Fin 3) = t.val % 4 ∧ win1_4.index t (2 : Fin 3) = 0 :=
  (by decide +kernel : ∀ t : Fin grid1.N, _)

variable (V : (c : Dev nD) → (b : Ref sig .tc) → Buf (Elt Ideal) ((c : Thread nD τ).loc b))

/-- The query block of point t at (0, r, d) is query row 512 (t % 4) + r of head t / 4. -/
theorem qblock_apply (c : Dev nD) (t : Fin cfg1.N) (u : Fin 1) (r : Fin 512) (d : Fin 64) (H : Fin 32) (R : Fin 2048)
    (hH : H.val = t.val / 4) (hR : R.val = t.val % 4 * 512 + r.val) :
    iblk1 V c 0 t (ix3 u r d) = V c main_v13 (ix3 H R d) := by
  have hf := idx_facts t
  have hu : u.val = 0 := by omega
  show V c main_v13 (((cfg1.win 0).blk t).view.emb (ix3 u r d)) = V c main_v13 (ix3 H R d)
  refine congrArg (V c main_v13) (funext fun a => Fin.ext ?_)
  match a with
  | ⟨0, _⟩ => show win1_0.index t (0 : Fin 3) * 1 + 1 * u.val = H.val; omega
  | ⟨1, _⟩ => show win1_0.index t (1 : Fin 3) * 512 + 1 * r.val = R.val; omega
  | ⟨2, _⟩ => show win1_0.index t (2 : Fin 3) * 64 + 1 * d.val = d.val; omega

/-- The key block of point t at (0, j, d) is key row j of head t / 4. -/
theorem kblock_apply (c : Dev nD) (t : Fin cfg1.N) (u : Fin 1) (j : Fin 2048) (d : Fin 64) (H : Fin 32)
    (hH : H.val = t.val / 4) : iblk1 V c 1 t (ix3 u j d) = V c main_v16 (ix3 H j d) := by
  have hf := idx_facts t
  have hu : u.val = 0 := by omega
  show V c main_v16 (((cfg1.win 1).blk t).view.emb (ix3 u j d)) = V c main_v16 (ix3 H j d)
  refine congrArg (V c main_v16) (funext fun a => Fin.ext ?_)
  match a with
  | ⟨0, _⟩ => show win1_1.index t (0 : Fin 3) * 1 + 1 * u.val = H.val; omega
  | ⟨1, _⟩ => show win1_1.index t (1 : Fin 3) * 2048 + 1 * j.val = j.val; omega
  | ⟨2, _⟩ => show win1_1.index t (2 : Fin 3) * 64 + 1 * d.val = d.val; omega

/-- The value block of point t at (0, j, d) is value row j of head t / 4. -/
theorem vblock_apply (c : Dev nD) (t : Fin cfg1.N) (u : Fin 1) (j : Fin 2048) (d : Fin 64) (H : Fin 32)
    (hH : H.val = t.val / 4) : iblk1 V c 2 t (ix3 u j d) = V c main_v19 (ix3 H j d) := by
  have hf := idx_facts t
  have hu : u.val = 0 := by omega
  show V c main_v19 (((cfg1.win 2).blk t).view.emb (ix3 u j d)) = V c main_v19 (ix3 H j d)
  refine congrArg (V c main_v19) (funext fun a => Fin.ext ?_)
  match a with
  | ⟨0, _⟩ => show win1_2.index t (0 : Fin 3) * 1 + 1 * u.val = H.val; omega
  | ⟨1, _⟩ => show win1_2.index t (1 : Fin 3) * 2048 + 1 * j.val = j.val; omega
  | ⟨2, _⟩ => show win1_2.index t (2 : Fin 3) * 64 + 1 * d.val = d.val; omega

/-- The body's weight of block row r on key row j is the whole-array weight of query row 512 (t % 4) + r of head t / 4. -/
theorem weight_block (c : Dev nD) (t : Fin cfg1.N) (r : Fin 512) (j : Fin 2048) (H : Fin 32) (R : Fin 2048)
    (hH : H.val = t.val / 4) (hR : R.val = t.val % 4 * 512 + r.val) :
    weightAt (iblk1 V c 0 t) (iblk1 V c 1 t) r j = weights3 (V c main_v13) (V c main_v16) (ix3 H R j) := by
  unfold weightAt scoreAt weights3
  refine congrArg (fun s => RowSoftmax.share Cert.Attn.negInf s j) (funext fun j' => Finset.sum_congr rfl fun d _ => ?_)
  exact congrArg₂ (fun a b : EReal => a * b) (qblock_apply V c t 0 r d H R hH hR) (kblock_apply V c t 0 j' d H hH)

/-! ## The weights (result 1 of the call) -/

theorem mem_blk4 (t : Fin cfg1.N) (i : S32x2048x2048.Idx) :
    i ∈ ((cfg1.win 4).blk t).view.set ↔ ∀ a : Fin 3, win1_4.index t a * S1x512x2048.size a ≤ (i a).val ∧ (i a).val < win1_4.index t a * S1x512x2048.size a + S1x512x2048.size a := by
  show i ∈ ((View.whole main_v20_1).slice (win1_4.rect t)).set ↔ _
  rw [View.set_slice_whole, Rect.mem_set_unit]
  exact Iff.rfl

/-- What point t writes back to the weights is block t of the whole-array function. -/
theorem flushed4_eq (c : Dev nD) (t : Fin cfg1.N) :
    (dat1 V c).flushed 4 t = ((cfg1.win 4).blk t).view.read (Elt Ideal) (weights3 (V c main_v13) (V c main_v16)) := by
  show (cfg1.win 4).cut (grid1.coords t) ((dat1 V c).after 4 t) = _
  rw [after1_4]
  unfold out1_4
  rw [View.canon_unit_zero hz3]
  simp only [View.ld_unit_zero (S := S1x512x64) hz3, View.ld_unit_zero (S := S1x2048x64) hz3]
  funext j
  obtain ⟨u, r, k, rfl⟩ : ∃ (u : Fin 1) (r : Fin 512) (k : Fin 2048), j = ix3 u r k := ⟨j 0, j 1, j 2, eq_ix3 j⟩
  have ht : t.val < 128 := t.isLt
  have hf := idx_facts t
  have hu : u.val = 0 := by omega
  have hemb : ((cfg1.win 4).blk t).view.emb (ix3 u r k)
      = ix3 (⟨t.val / 4, by omega⟩ : Fin 32) (⟨t.val % 4 * 512 + r.val, by have := r.isLt; omega⟩ : Fin 2048) k := by
    funext a; apply Fin.ext
    match a with
    | ⟨0, _⟩ => show win1_4.index t (0 : Fin 3) * 1 + 1 * u.val = t.val / 4; omega
    | ⟨1, _⟩ => show win1_4.index t (1 : Fin 3) * 512 + 1 * r.val = t.val % 4 * 512 + r.val; omega
    | ⟨2, _⟩ => show win1_4.index t (2 : Fin 3) * 2048 + 1 * k.val = k.val; omega
  refine (pay2w_apply (iblk1 V c 0 t) (iblk1 V c 1 t) u r k).trans ?_
  show _ = weights3 (V c main_v13) (V c main_v16) (((cfg1.win 4).blk t).view.emb (ix3 u r k))
  rw [hemb]
  exact weight_block V c t r k _ _ rfl rfl

/-- The 128 blocks cover the 32 x 2048 rows of weights. -/
theorem cover4 (i : S32x2048x2048.Idx) : ∃ t : Fin cfg1.N, (cfg1.win 4).flush t = true ∧ i ∈ ((cfg1.win 4).blk t).view.set := by
  have hi0 : (i 0).val < 32 := (i 0).isLt
  have hi1 : (i 1).val < 2048 := (i 1).isLt
  have hi2 : (i 2).val < 2048 := (i 2).isLt
  have hq : (i 0).val * 4 + (i 1).val / 512 < 128 := by omega
  obtain ⟨t, ht⟩ : ∃ t : Fin cfg1.N, t.val = (i 0).val * 4 + (i 1).val / 512 := ⟨⟨_, hq⟩, rfl⟩
  refine ⟨t, flush1_4 t, ?_⟩
  rw [mem_blk4]
  have hf := idx_facts t
  intro a
  match a with
  | ⟨0, _⟩ =>
    show win1_4.index t (0 : Fin 3) * 1 ≤ (i 0).val ∧ (i 0).val < win1_4.index t (0 : Fin 3) * 1 + 1
    omega
  | ⟨1, _⟩ =>
    show win1_4.index t (1 : Fin 3) * 512 ≤ (i 1).val ∧ (i 1).val < win1_4.index t (1 : Fin 3) * 512 + 512
    omega
  | ⟨2, _⟩ =>
    show win1_4.index t (2 : Fin 3) * 2048 ≤ (i 2).val ∧ (i 2).val < win1_4.index t (2 : Fin 3) * 2048 + 2048
    omega

/-- The weights' array after the call. -/
theorem final4 (c : Dev nD) : (dat1 V c).arrAt 4 cfg1.N = weights3 (V c main_v13) (V c main_v16) :=
  (dat1 V c).arrAt_eq_of_cover 4 _ (fun t _ => flushed4_eq V c t) cover4

/-! ## The output (result 0 of the call) -/

theorem mem_blk3 (t : Fin cfg1.N) (i : S32x2048x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v20_0).slice (win1_3.rect t)).set ↔ _
  rw [View.set_slice_whole, Rect.mem_set_unit]
  exact Iff.rfl

/-- What point t writes back to the output is block t of the whole-array function. -/
theorem flushed3_eq (c : Dev nD) (t : Fin cfg1.N) :
    (dat1 V c).flushed 3 t = ((cfg1.win 3).blk t).view.read (Elt Ideal) (out3 (V c main_v13) (V c main_v16) (V c main_v19)) := by
  show (cfg1.win 3).cut (grid1.coords t) ((dat1 V c).after 3 t) = _
  rw [after1_3]
  unfold out1_3
  rw [View.canon_unit_zero hz3]
  simp only [View.ld_unit_zero (S := S1x512x64) hz3, View.ld_unit_zero (S := S1x2048x64) hz3]
  funext j
  obtain ⟨u, r, e, rfl⟩ : ∃ (u : Fin 1) (r : Fin 512) (e : Fin 64), j = ix3 u r e := ⟨j 0, j 1, j 2, eq_ix3 j⟩
  have ht : t.val < 128 := t.isLt
  have hf := idx_facts t
  have hu : u.val = 0 := by omega
  have hemb : ((cfg1.win 3).blk t).view.emb (ix3 u r e)
      = ix3 (⟨t.val / 4, by omega⟩ : Fin 32) (⟨t.val % 4 * 512 + r.val, by have := r.isLt; omega⟩ : Fin 2048) e := by
    funext a; apply Fin.ext
    match a with
    | ⟨0, _⟩ => show win1_3.index t (0 : Fin 3) * 1 + 1 * u.val = t.val / 4; omega
    | ⟨1, _⟩ => show win1_3.index t (1 : Fin 3) * 512 + 1 * r.val = t.val % 4 * 512 + r.val; omega
    | ⟨2, _⟩ => show win1_3.index t (2 : Fin 3) * 64 + 1 * e.val = e.val; omega
  refine (pay3o_apply (iblk1 V c 0 t) (iblk1 V c 1 t) (iblk1 V c 2 t) u r e).trans ?_
  show _ = out3 (V c main_v13) (V c main_v16) (V c main_v19) (((cfg1.win 3).blk t).view.emb (ix3 u r e))
  rw [hemb]
  unfold out3
  refine Finset.sum_congr rfl fun j' _ => ?_
  exact congrArg₂ (fun a b : EReal => a * b) (weight_block V c t r j' _ _ rfl rfl) (vblock_apply V c t 0 j' e _ rfl)

/-- The 128 blocks cover the 32 x 2048 rows of the output. -/
theorem cover3 (i : S32x2048x64.Idx) : ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  have hq : (i 0).val * 4 + (i 1).val / 512 < 128 := by omega
  obtain ⟨t, ht⟩ : ∃ t : Fin cfg1.N, t.val = (i 0).val * 4 + (i 1).val / 512 := ⟨⟨_, hq⟩, rfl⟩
  refine ⟨t, flush1_3 t, ?_⟩
  rw [mem_blk3]
  have hf := idx_facts t
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 512 ≤ (i 1).val ∧ (i 1).val < win1_3.index t (1 : Fin 3) * 512 + 512
    omega
  | ⟨2, _⟩ =>
    show win1_3.index t (2 : Fin 3) * 64 ≤ (i 2).val ∧ (i 2).val < win1_3.index t (2 : Fin 3) * 64 + 64
    omega

/-- The output's array after the call. -/
theorem final3 (c : Dev nD) : (dat1 V c).arrAt 3 cfg1.N = out3 (V c main_v13) (V c main_v16) (V c main_v19) :=
  (dat1 V c).arrAt_eq_of_cover 3 _ (fun t _ => flushed3_eq V c t) cover3

end Cert.KernelIdeal.AttnArrays

end
-- ==== Proof.LibFlattenRows.lean ====
/-
  An array of shape [a, b, c] and the same entries as a matrix of a·b rows: entry (i, j, k) of the one is entry
  (i·b + j, k) of the other, in both directions of the reshape.
-/
import Idealize.ShloMosaic.Lib.Pipeline.Value
import Idealize.ShloMosaic.Lib.ValueIdx

namespace Cert.FlattenRows

open Idealize.ShloMosaic Idealize.ShloMosaic.ValueIdx

variable {α : Type}

/-- Flattening the two leading axes: row `i·b + j` of the matrix is row `j` of slab `i`. -/
theorem flatten_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- Splitting the rows again: row `j` of slab `i` is row `i·b + j` of the matrix. -/
theorem unflatten_apply {a b c n : ℕ} (y : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ y h (ix3 i j k) = y (ix2 r k) :=
  shapeCast_apply y h _ _ (by
    rw [Shape.rowMajor_val_three, Shape.rowMajor_val_two]
    show r.val * c + k.val = (i.val * b + j.val) * c + k.val
    rw [hr])

end Cert.FlattenRows
-- ==== Proof.ProjBridge.lean ====
/-
  The projection over the flattened input against the projection over batches.

  The kernel's arrangement takes the input flattened to 4096 rows, the weights transposed and the bias as a row, and
  computes at (R, e) the sum over d of x (R, d) * wT (d, e) plus b (0, e). With R = 2048 B + s this is the sum over d of
  X (B, s, d) * W (e, d) plus b (e): the entry (B, s, e) of the projection over batches, that is, entry (R, e) of that
  projection flattened. Only the naming of entries changes; no law of arithmetic is used.
-/
import proofs.«164298_j55353538511182_2_alg».proof.Proof.ProjArrays
import proofs.«164298_j55353538511182_2_alg».proof.Proof.LibFlattenRows
import Idealize.ShloMosaic.Lib.ValueLayout

noncomputable section

namespace Cert.KernelIdeal.ProjBridge

open Cert.KernelIdeal Cert.KernelIdeal.Gen Cert.KernelIdeal.ProjArrays
open Idealize.ShloMosaic Idealize.ShloMosaic.ValueIdx

theorem projRows_eq (X : S2x2048x1024.Idx → EReal) (W : S1024x1024.Idx → EReal) (b : S1024.Idx → EReal)
    (P : S2x2048x1024.Idx → EReal)
    (hP : ∀ (B : Fin 2) (s : Fin 2048) (e : Fin 1024),
      P (ix3 B s e) = (∑ d : Fin 1024, X (ix3 B s d) * W (ix2 e d)) + b (ix1 e)) :
    projRows (shapeCast S4096x1024 X shapeCasts_S2x2048x1024_S4096x1024)
        (truncf (F := Ideal) .bf16 (transpose S1024x1024 [1, 0] W transposes_S1024x1024_S1024x1024_1_0) bitsLt_bf16_f32)
        (shapeCast S1x1024 b shapeCasts_S1024_S1x1024)
      = shapeCast S4096x1024 P shapeCasts_S2x2048x1024_S4096x1024 := by
  funext i
  obtain ⟨R, e, rfl⟩ : ∃ (R : Fin 4096) (e : Fin 1024), i = ix2 R e := ⟨i 0, i 1, eq_ix2 i⟩
  have hR := R.isLt
  have hB : R.val / 2048 < 2 := by omega
  have hs : R.val % 2048 < 2048 := by omega
  have hr : R.val = (⟨R.val / 2048, hB⟩ : Fin 2).val * 2048 + (⟨R.val % 2048, hs⟩ : Fin 2048).val := by
    show R.val = R.val / 2048 * 2048 + R.val % 2048
    omega
  refine Eq.trans ?_ (Eq.symm ((Cert.FlattenRows.flatten_apply P _ ⟨R.val / 2048, hB⟩ ⟨R.val % 2048, hs⟩ e R hr).trans (hP _ _ _)))
  unfold projRows
  refine congrArg₂ (fun a b : EReal => a + b) (Finset.sum_congr rfl fun d _ => ?_) ?_
  · exact congrArg₂ (fun a b : EReal => a * b)
      (Cert.FlattenRows.flatten_apply X _ ⟨R.val / 2048, hB⟩ ⟨R.val % 2048, hs⟩ d R hr)
      (transpose_ix2_apply W _ d e)
  · exact shapeCast_a_1a_apply b _ 0 e

end Cert.KernelIdeal.ProjBridge

end
-- ==== Proof.LibLeadingAxes.lean ====
/-
  An array of shape [a, b, c, d] and the same entries with the two leading axes merged into one axis of a·b
  positions: entry (i, j, k, l) of the one is entry (i·b + j, k, l) of the other, in both directions of the reshape.
  (A batch of heads [B, H, S, D] against a stack of B·H matrices [B·H, S, D].) Generic in the extents and the
  element type.
-/
import Idealize.ShloMosaic.Lib.Pipeline.Value
import Idealize.ShloMosaic.Lib.ValueIdx

namespace LeadingAxes

open Idealize.ShloMosaic Idealize.ShloMosaic.ValueIdx

variable {α : Type}

/-- Merging the two leading axes: matrix `i·b + j` of the stack is matrix `j` of slab `i`. -/
theorem merge_apply {a b c d n : ℕ} (x : (⟨4, ![a, b, c, d]⟩ : Shape).Idx → α)
    (h : (⟨4, ![a, b, c, d]⟩ : Shape).ShapeCasts ⟨3, ![n, c, d]⟩) (i : Fin a) (j : Fin b) (k : Fin c) (l : Fin d)
    (r : Fin n) (hr : r.val = i.val * b + j.val) : shapeCast ⟨3, ![n, c, d]⟩ x h (ix3 r k l) = x (ix4 i j k l) :=
  shapeCast_apply x h _ _ (by
    rw [Shape.rowMajor_val_four, Shape.rowMajor_val_three]
    show ((i.val * b + j.val) * c + k.val) * d + l.val = (r.val * c + k.val) * d + l.val
    rw [hr])

/-- Splitting the leading axis again: matrix `j` of slab `i` is matrix `i·b + j` of the stack. -/
theorem split_apply {a b c d n : ℕ} (y : (⟨3, ![n, c, d]⟩ : Shape).Idx → α)
    (h : (⟨3, ![n, c, d]⟩ : Shape).ShapeCasts ⟨4, ![a, b, c, d]⟩) (i : Fin a) (j : Fin b) (k : Fin c) (l : Fin d)
    (r : Fin n) (hr : r.val = i.val * b + j.val) : shapeCast ⟨4, ![a, b, c, d]⟩ y h (ix4 i j k l) = y (ix3 r k l) :=
  shapeCast_apply y h _ _ (by
    rw [Shape.rowMajor_val_four, Shape.rowMajor_val_three]
    show (r.val * c + k.val) * d + l.val = ((i.val * b + j.val) * c + k.val) * d + l.val
    rw [hr])

end LeadingAxes
-- ==== Proof.ScaleLaw.lean ====
/-
  The law that joins a scaled query to a divided score.

  The pattern 0x3E000000 denotes the real 1/8 and the pattern 0x42800000 the real 64, whose square root is the real 8.
  Dividing an extended real by the real 8 is multiplying it by the real 1/8, at the infinities too. In each product
  (q d * c) * k d = (q d * k d) * c by commutativity and associativity of the product of extended reals. A nonnegative
  real factor distributes over a finite sum of extended reals, by induction on the sum, with nothing assumed finite:
  x * c + y * c = (x + y) * c for every x, y when 0 ≤ c < ⊤.
-/
import proofs.«164298_j55353538511182_2_alg».proof.Proof.AttnSpec

noncomputable section

namespace Cert.RefAttn

open Idealize.ShloMosaic Idealize.ShloMosaic.ValueIdx

/-- The pattern 0x3E000000 denotes the real one eighth. -/
theorem ofBits_eighth : Ideal.ofBits .f32 0x3E000000#32 = (((1 : ℝ) / 8 : ℝ) : EReal) := by
  simp [Ideal.ofBits, Ideal.ieee, -EReal.coe_mul]; norm_num

/-- The pattern 0x42800000 denotes the real sixty-four. -/
theorem ofBits_sixtyfour : Ideal.ofBits .f32 0x42800000#32 = ((64 : ℝ) : EReal) := by
  simp [Ideal.ofBits, Ideal.ieee, -EReal.coe_mul]; norm_num

/-- The square root of sixty-four is eight. -/
theorem sqrt_sixtyfour : Ideal.sqrt (Ideal.ofBits .f32 0x42800000#32) = ((8 : ℝ) : EReal) := by
  rw [ofBits_sixtyfour, Ideal.sqrt_coe, if_neg (by norm_num)]
  have h : Real.sqrt 64 = 8 := by
    rw [show (64 : ℝ) = 8 ^ 2 by norm_num]
    exact Real.sqrt_sq (by norm_num)
  rw [h]

/-- A nonnegative real factor distributes over a finite sum of extended reals. -/
theorem sum_mul_coe_of_nonneg {ι : Type*} (s : Finset ι) (f : ι → EReal) {c : ℝ} (hc : 0 ≤ c) :
    ∑ d ∈ s, f d * (c : EReal) = (∑ d ∈ s, f d) * (c : EReal) := by
  classical
  induction s using Finset.induction_on with
  | empty => simp
  | insert a s ha ih =>
    rw [Finset.sum_insert ha, Finset.sum_insert ha, ih]
    exact (EReal.right_distrib_of_nonneg_of_ne_top (EReal.coe_nonneg.mpr hc) (EReal.coe_ne_top c) _ _).symm

/-- Scaling every query by one eighth before the products is dividing the plain score by the square root of 64. -/
theorem scaled_score (q k : Cert.Attn.Sqkv.Idx → EReal) (b : Fin 2) (h : Fin 16) (i j : Fin 2048) :
    Cert.Attn.dotScore (fun y => q y * Ideal.ofBits .f32 0x3E000000#32) k b h i j
      = Ideal.div (Cert.Attn.dotScore q k b h i j) (Ideal.sqrt (Ideal.ofBits .f32 0x42800000#32)) := by
  rw [sqrt_sixtyfour, Ideal.div_coe (by norm_num : (8 : ℝ) ≠ 0), ofBits_eighth]
  unfold Cert.Attn.dotScore
  rw [← sum_mul_coe_of_nonneg _ _ (by norm_num : (0 : ℝ) ≤ 1 / 8)]
  refine Finset.sum_congr rfl fun d _ => ?_
  rw [mul_assoc, mul_comm ((((1 : ℝ) / 8 : ℝ)) : EReal), ← mul_assoc]

end Cert.RefAttn

end
-- ==== Proof.HeadsBridge.lean ====
/-
  A stack of 32 head matrices against a batch of 2 x 16 heads.

  When queries, keys and values [2, 16, 2048, 64] are merged into stacks [32, 2048, 64] (head b·16 + h of the stack is
  head h of batch b), the stack's attention weights, split back into [2, 16, 2048, 2048], are the softmax of the rows
  of plain scores of the batch of heads, and the stack's output, split back into [2, 16, 2048, 64], is those weights
  applied to the values: merging and splitting only rename the head.

  With the law of scaled scores: queries scaled by 1/8 before the scores are the plain scores divided by the square
  root of 64.
-/
import proofs.«164298_j55353538511182_2_alg».proof.Proof.AttnArrays
import proofs.«164298_j55353538511182_2_alg».proof.Proof.LibLeadingAxes
import proofs.«164298_j55353538511182_2_alg».proof.Proof.ScaleLaw

noncomputable section

namespace Cert.KernelIdeal.Heads

open Cert.KernelIdeal Cert.KernelIdeal.Gen Cert.KernelIdeal.AttnArrays
open Idealize.ShloMosaic Idealize.ShloMosaic.ValueIdx

/-- A batch of heads merged into a stack. -/
abbrev stack (x : S2x16x2048x64.Idx → EReal) : S32x2048x64.Idx → EReal :=
  shapeCast S32x2048x64 x shapeCasts_S2x16x2048x64_S32x2048x64

/-- The stack's weights, split into the batch of heads, are the softmax of the rows of plain scores. -/
theorem weights_heads (q k : S2x16x2048x64.Idx → EReal) :
    shapeCast S2x16x2048x2048 (weights3 (stack q) (stack k)) shapeCasts_S32x2048x2048_S2x16x2048x2048
      = Cert.Attn.softmaxRows (Cert.Attn.dotScore q k) := by
  funext i
  obtain ⟨b, h, p, j, rfl⟩ : ∃ (b : Fin 2) (h : Fin 16) (p j : Fin 2048), i = ix4 b h p j := ⟨i 0, i 1, i 2, i 3, eq_ix4 i⟩
  have hlt : b.val * 16 + h.val < 32 := by have := b.isLt; have := h.isLt; omega
  refine (LeadingAxes.split_apply _ _ b h p j ⟨b.val * 16 + h.val, hlt⟩ rfl).trans ?_
  unfold weights3 Cert.Attn.softmaxRows Cert.Attn.dotScore
  refine congrArg (fun s => RowSoftmax.share Cert.Attn.negInf s j) (funext fun j' => Finset.sum_congr rfl fun d _ => ?_)
  exact congrArg₂ (fun a b : EReal => a * b)
    (LeadingAxes.merge_apply q _ b h p d ⟨b.val * 16 + h.val, hlt⟩ rfl)
    (LeadingAxes.merge_apply k _ b h j' d ⟨b.val * 16 + h.val, hlt⟩ rfl)

/-- The stack's output, split into the batch of heads, is those weights applied to the values. -/
theorem out_heads (q k v : S2x16x2048x64.Idx → EReal) :
    shapeCast S2x16x2048x64 (out3 (stack q) (stack k) (stack v)) shapeCasts_S32x2048x64_S2x16x2048x64
      = Cert.Attn.weighted (Cert.Attn.softmaxRows (Cert.Attn.dotScore q k)) v := by
  funext i
  obtain ⟨b, h, p, e, rfl⟩ : ∃ (b : Fin 2) (h : Fin 16) (p : Fin 2048) (e : Fin 64), i = ix4 b h p e := ⟨i 0, i 1, i 2, i 3, eq_ix4 i⟩
  have hlt : b.val * 16 + h.val < 32 := by have := b.isLt; have := h.isLt; omega
  refine (LeadingAxes.split_apply _ _ b h p e ⟨b.val * 16 + h.val, hlt⟩ rfl).trans ?_
  unfold out3 Cert.Attn.weighted
  refine Finset.sum_congr rfl fun j _ => ?_
  refine congrArg₂ (fun a b : EReal => a * b) ?_ (LeadingAxes.merge_apply v _ b h j e ⟨b.val * 16 + h.val, hlt⟩ rfl)
  exact ((LeadingAxes.split_apply (weights3 (stack q) (stack k)) shapeCasts_S32x2048x2048_S2x16x2048x2048 b h p j
    ⟨b.val * 16 + h.val, hlt⟩ rfl).symm).trans (congrFun (weights_heads q k) (ix4 b h p j))

/-- Queries scaled by the literal 1/8: the weights are those of the plain scores divided by the square root of 64. -/
theorem scaled_weights (q k : S2x16x2048x64.Idx → EReal) :
    Cert.Attn.softmaxRows (Cert.Attn.dotScore (fun y => q y * Ideal.ofBits .f32 0x3E000000#32) k)
      = Cert.Attn.softmaxRows (fun b h i j =>
          Ideal.div (Cert.Attn.dotScore q k b h i j) (Ideal.sqrt (Ideal.ofBits .f32 0x42800000#32))) :=
  congrArg Cert.Attn.softmaxRows
    (funext fun b => funext fun h => funext fun i => funext fun j => Cert.RefAttn.scaled_score q k b h i j)

end Cert.KernelIdeal.Heads

end
-- ==== Proof.RefAttention.lean ====
/-
  The reference's attention, read as the spec's softmax of the scaled scores and the spec's weighted values.

  The reference computes, for every batch b, head h and query position q: the scores s (q, k) = (the sum over the 64
  features of query (q, d) * key (k, d)) divided by the square root of 64; the row maximum M, a fold of max from -inf
  over the key positions, maximized once more with -inf (which changes nothing, the fold being already above -inf);
  the exponentials exp (s (q, k) - M); their sum over the key positions, started from zero; the quotient. That is the
  share of row (b, h, q) at column k. The output is, at (b, h, q, d), the sum over the key positions k of weight
  (q, k) times value (k, d).

  Each step reads one element of the operand at an index computed from the result's index; the index functions of the
  broadcasts and of the sums and products are, at an index written from its coordinates, again an index written from
  coordinates (axis by axis, by computation).
-/
import proofs.«164298_j55353538511182_2_alg».proof.Proof.Gen.ReferenceIdeal.Read
import proofs.«164298_j55353538511182_2_alg».proof.Proof.AttnSpec

noncomputable section

namespace Cert.RefAttn

open Cert.ReferenceIdeal Cert.ReferenceIdeal.Gen Cert.ReferenceIdeal.Read Idealize.ShloMosaic Idealize.ShloMosaic.ValueIdx

section

variable (x0 : (⟨S2x2048x1024, .f32⟩ : BufTy).Contents (Elt Ideal))
  (x1 : (⟨S1024x1024, .f32⟩ : BufTy).Contents (Elt Ideal)) (x2 : (⟨S1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))

/-- The table of scores: the plain score of the queries against the keys, divided by the square root of 64. -/
def scores : Fin 2 → Fin 16 → Fin 2048 → Fin 2048 → EReal := fun b h i j =>
  Ideal.div (Cert.Attn.dotScore (val_main_v5 (F := Ideal) x0 x1 x2) (val_main_v11 (F := Ideal) x0 x3 x4) b h i j)
    (Ideal.sqrt (Ideal.ofBits .f32 0x42800000#32))

/-- The reference's scaled scores at (b, h, q, k). -/
theorem v21_apply (b : Fin 2) (h : Fin 16) (q k : Fin 2048) :
    val_main_v21 (F := Ideal) x0 x1 x2 x3 x4 (ix4 b h q k) = scores x0 x1 x2 x3 x4 b h q k := by
  rw [val_main_v21_apply, val_main_v18_apply, val_main_v20_apply, val_main_v19_apply, val_main_cst_apply,
    Ideal.hostDivf_def, Ideal.hostUnary_sqrt_def, Ideal.ofBits_def]
  unfold scores Cert.Attn.dotScore
  refine congrArg (fun z => Ideal.div z _) (Finset.sum_congr rfl fun d _ => ?_)
  have el : lidx_main_v18 (ix4 b h q k) d = ix4 b h q d := funext fun a => Fin.ext (by
    match a with
    | ⟨0, _⟩ => rfl
    | ⟨1, _⟩ => rfl
    | ⟨2, _⟩ => rfl
    | ⟨3, _⟩ => rfl)
  have er : ridx_main_v18 (ix4 b h q k) d = ix4 b h k d := funext fun a => Fin.ext (by
    match a with
    | ⟨0, _⟩ => rfl
    | ⟨1, _⟩ => rfl
    | ⟨2, _⟩ => rfl
    | ⟨3, _⟩ => rfl)
  rw [el, er]

/-- The last axis of the score table is dropped by the row reductions. -/
theorem reduces_d3 : S2x16x2048x2048.Reduces [3] S2x16x2048 := by decide

/-- The reduced index (b, h, q) with key position k put back is (b, h, q, k). -/
theorem lift_ix3 (hr : S2x16x2048x2048.Reduces [3] S2x16x2048) (b : Fin 2) (h : Fin 16) (q : Fin 2048)
    (k : Fin (S2x16x2048x2048.size 3)) : hr.lift (ix3 b h q) k = ix4 b h q (⟨k.val, k.isLt⟩ : Fin 2048) := by
  funext c; apply Fin.ext
  fin_cases c <;> rfl

/-- The reference's row maximum at (b, h, q): the fold of max from -inf over the row's scores. -/
theorem v22_apply (b : Fin 2) (h : Fin 16) (q : Fin 2048) :
    val_main_v22 (F := Ideal) x0 x1 x2 x3 x4 (ix3 b h q)
      = RowSoftmax.rowMax Cert.Attn.negInf (fun j => scores x0 x1 x2 x3 x4 b h q j) := by
  unfold val_main_v22
  rw [Host.reduce_eq_fold_single FloatOps.maximumf _ _ reducesTo_S2x16x2048x2048_S2x16x2048_d3 reduces_d3 h_S_]
  unfold RowSoftmax.rowMax Cert.Attn.negInf
  have hf : (val_main_v21 (F := Ideal) x0 x1 x2 x3 x4 ∘ reduces_d3.lift (ix3 b h q))
      = fun j : Fin 2048 => scores x0 x1 x2 x3 x4 b h q j := funext fun j => by
    show val_main_v21 (F := Ideal) x0 x1 x2 x3 x4 (reduces_d3.lift (ix3 b h q) j) = _
    rw [lift_ix3]
    exact v21_apply x0 x1 x2 x3 x4 b h q _
  exact congrArg (fun f => Finset.fold max (Ideal.ofBits .f32 0xFF800000#32) f (Finset.univ : Finset (Fin 2048))) hf

/-- The index (b, h, q, k), its last coordinate dropped by the two broadcasts, is (b, h, q). -/
theorem idx_v25_v26 (b : Fin 2) (h : Fin 16) (q k : Fin 2048) :
    idx_main_v25 (idx_main_v26 (ix4 b h q k)) = ix3 b h q := funext fun a => Fin.ext (by
  match a with
  | ⟨0, _⟩ => rfl
  | ⟨1, _⟩ => rfl
  | ⟨2, _⟩ => rfl)

/-- The same for the broadcasts of the row sums. -/
theorem idx_v30_v31 (b : Fin 2) (h : Fin 16) (q k : Fin 2048) :
    idx_main_v30 (idx_main_v31 (ix4 b h q k)) = ix3 b h q := funext fun a => Fin.ext (by
  match a with
  | ⟨0, _⟩ => rfl
  | ⟨1, _⟩ => rfl
  | ⟨2, _⟩ => rfl)

/-- The row (b, h, q) at key position k is (b, h, q, k). -/
theorem idx_v29 (b : Fin 2) (h : Fin 16) (q k : Fin 2048) : idx_main_v29 (ix3 b h q) k = ix4 b h q k :=
  funext fun a => Fin.ext (by
    match a with
    | ⟨0, _⟩ => rfl
    | ⟨1, _⟩ => rfl
    | ⟨2, _⟩ => rfl
    | ⟨3, _⟩ => rfl)

/-- The reference's broadcast row maximum at (b, h, q, k): the row's maximum (one more max with -inf changes nothing). -/
theorem v26_apply (b : Fin 2) (h : Fin 16) (q k : Fin 2048) :
    val_main_v26 (F := Ideal) x0 x1 x2 x3 x4 (ix4 b h q k)
      = RowSoftmax.rowMax Cert.Attn.negInf (fun j => scores x0 x1 x2 x3 x4 b h q j) := by
  rw [val_main_v26_apply, val_main_v25_apply, idx_v25_v26, val_main_v24_apply, val_main_v23_apply,
    val_main_cst_1_apply, v22_apply, Ideal.maximumf_def, Ideal.ofBits_def]
  exact RowSoftmax.max_rowMax Cert.Attn.negInf _

/-- The reference's shifted exponential at (b, h, q, k). -/
theorem v28_apply (b : Fin 2) (h : Fin 16) (q k : Fin 2048) :
    val_main_v28 (F := Ideal) x0 x1 x2 x3 x4 (ix4 b h q k)
      = Ideal.exp (scores x0 x1 x2 x3 x4 b h q k
          - RowSoftmax.rowMax Cert.Attn.negInf (fun j => scores x0 x1 x2 x3 x4 b h q j)) := by
  rw [val_main_v28_apply, val_main_v27_apply, v21_apply, v26_apply, Ideal.hostUnary_exp_def, Ideal.subf_def]

/-- The reference's attention weight at (b, h, q, k): the share of row (b, h, q) at column k. -/
theorem v32_apply (b : Fin 2) (h : Fin 16) (q k : Fin 2048) :
    val_main_v32 (F := Ideal) x0 x1 x2 x3 x4 (ix4 b h q k)
      = RowSoftmax.share Cert.Attn.negInf (fun j => scores x0 x1 x2 x3 x4 b h q j) k := by
  rw [val_main_v32_apply, val_main_v31_apply, val_main_v30_apply, idx_v30_v31, val_main_v29_apply,
    val_main_cst_2_apply, Ideal.ofBits_def, Ideal.ofBits_zero_f32, zero_add, Ideal.hostDivf_def, v28_apply]
  unfold RowSoftmax.share
  refine congrArg (Ideal.div _) (Finset.sum_congr rfl fun j _ => ?_)
  rw [idx_v29, v28_apply]

/-- (R1) The reference's attention weights are the softmax of each row of the scaled scores. -/
theorem attn_eq : val_main_v32 (F := Ideal) x0 x1 x2 x3 x4 = Cert.Attn.softmaxRows (fun b h i j => Ideal.div (Cert.Attn.dotScore (val_main_v5 (F := Ideal) x0 x1 x2) (val_main_v11 (F := Ideal) x0 x3 x4) b h i j) (Ideal.sqrt (Ideal.ofBits .f32 0x42800000#32))) := by
  funext i
  exact (congrArg (val_main_v32 (F := Ideal) x0 x1 x2 x3 x4) (eq_ix4 i)).trans (v32_apply x0 x1 x2 x3 x4 (i 0) (i 1) (i 2) (i 3))

/-- (R2) The reference's output is the values weighted by the attention weights. -/
theorem out_eq : val_main_v33 (F := Ideal) x0 x1 x2 x3 x4 x5 x6 = Cert.Attn.weighted (val_main_v32 (F := Ideal) x0 x1 x2 x3 x4) (val_main_v17 (F := Ideal) x0 x5 x6) := by
  funext i
  rw [val_main_v33_apply]
  unfold Cert.Attn.weighted
  refine Finset.sum_congr rfl fun k _ => ?_
  have el : lidx_main_v33 i k = ix4 (i 0) (i 1) (i 2) k := funext fun a => Fin.ext (by
    match a with
    | ⟨0, _⟩ => rfl
    | ⟨1, _⟩ => rfl
    | ⟨2, _⟩ => rfl
    | ⟨3, _⟩ => rfl)
  have er : ridx_main_v33 i k = ix4 (i 0) (i 1) k (i 3) := funext fun a => Fin.ext (by
    match a with
    | ⟨0, _⟩ => rfl
    | ⟨1, _⟩ => rfl
    | ⟨2, _⟩ => rfl
    | ⟨3, _⟩ => rfl)
  rw [el, er]
  rfl

end

end Cert.RefAttn

end
-- ==== Proof.RefProjection.lean ====
/-
  The reference's three projections, read at an entry.

  Each of the queries, keys and values is, before it is split into heads, the input times the transpose of a weight
  matrix plus a bias: at (batch B, position s, output feature e) the sum over the 1024 input features d of
  x (B, s, d) * w (e, d), plus the bias at e. The bias is broadcast along the batch and the position; the product
  contracts the input's last axis with the weight's last axis.
-/
import proofs.«164298_j55353538511182_2_alg».proof.Proof.Gen.ReferenceIdeal.Read

noncomputable section

namespace Cert.RefAttn

open Cert.ReferenceIdeal Cert.ReferenceIdeal.Gen Cert.ReferenceIdeal.Read Idealize.ShloMosaic Idealize.ShloMosaic.ValueIdx

/-- The query projection at (B, s, e): the sum over the input features of input times weight, plus the bias. -/
theorem proj_q_apply (x0 : (⟨S2x2048x1024, .f32⟩ : BufTy).Contents (Elt Ideal))
    (w : (⟨S1024x1024, .f32⟩ : BufTy).Contents (Elt Ideal)) (c : (⟨S1024, .f32⟩ : BufTy).Contents (Elt Ideal))
    (B : Fin 2) (s : Fin 2048) (e : Fin 1024) :
    val_main_v3 (F := Ideal) x0 w c (ix3 B s e) = (∑ d : Fin 1024, x0 (ix3 B s d) * w (ix2 e d)) + c (ix1 e) := by
  rw [val_main_v3_apply, val_main_v0_apply, val_main_v2_apply, val_main_v1_apply, Ideal.addf_def]
  have eb : idx_main_v1 (idx_main_v2 (ix3 B s e)) = ix1 e := funext fun a => Fin.ext (by
    match a with
    | ⟨0, _⟩ => rfl)
  rw [eb]
  refine congrArg (· + c (ix1 e)) (Finset.sum_congr rfl fun d _ => ?_)
  have el : lidx_main_v0 (ix3 B s e) d = ix3 B s d := funext fun a => Fin.ext (by
    match a with
    | ⟨0, _⟩ => rfl
    | ⟨1, _⟩ => rfl
    | ⟨2, _⟩ => rfl)
  have er : ridx_main_v0 (ix3 B s e) d = ix2 e d := funext fun a => Fin.ext (by
    match a with
    | ⟨0, _⟩ => rfl
    | ⟨1, _⟩ => rfl)
  rw [el, er]

/-- The key projection at (B, s, e): the sum over the input features of input times weight, plus the bias. -/
theorem proj_k_apply (x0 : (⟨S2x2048x1024, .f32⟩ : BufTy).Contents (Elt Ideal))
    (w : (⟨S1024x1024, .f32⟩ : BufTy).Contents (Elt Ideal)) (c : (⟨S1024, .f32⟩ : BufTy).Contents (Elt Ideal))
    (B : Fin 2) (s : Fin 2048) (e : Fin 1024) :
    val_main_v9 (F := Ideal) x0 w c (ix3 B s e) = (∑ d : Fin 1024, x0 (ix3 B s d) * w (ix2 e d)) + c (ix1 e) := by
  rw [val_main_v9_apply, val_main_v6_apply, val_main_v8_apply, val_main_v7_apply, Ideal.addf_def]
  have eb : idx_main_v7 (idx_main_v8 (ix3 B s e)) = ix1 e := funext fun a => Fin.ext (by
    match a with
    | ⟨0, _⟩ => rfl)
  rw [eb]
  refine congrArg (· + c (ix1 e)) (Finset.sum_congr rfl fun d _ => ?_)
  have el : lidx_main_v6 (ix3 B s e) d = ix3 B s d := funext fun a => Fin.ext (by
    match a with
    | ⟨0, _⟩ => rfl
    | ⟨1, _⟩ => rfl
    | ⟨2, _⟩ => rfl)
  have er : ridx_main_v6 (ix3 B s e) d = ix2 e d := funext fun a => Fin.ext (by
    match a with
    | ⟨0, _⟩ => rfl
    | ⟨1, _⟩ => rfl)
  rw [el, er]

/-- The value projection at (B, s, e): the sum over the input features of input times weight, plus the bias. -/
theorem proj_v_apply (x0 : (⟨S2x2048x1024, .f32⟩ : BufTy).Contents (Elt Ideal))
    (w : (⟨S1024x1024, .f32⟩ : BufTy).Contents (Elt Ideal)) (c : (⟨S1024, .f32⟩ : BufTy).Contents (Elt Ideal))
    (B : Fin 2) (s : Fin 2048) (e : Fin 1024) :
    val_main_v15 (F := Ideal) x0 w c (ix3 B s e) = (∑ d : Fin 1024, x0 (ix3 B s d) * w (ix2 e d)) + c (ix1 e) := by
  rw [val_main_v15_apply, val_main_v12_apply, val_main_v14_apply, val_main_v13_apply, Ideal.addf_def]
  have eb : idx_main_v13 (idx_main_v14 (ix3 B s e)) = ix1 e := funext fun a => Fin.ext (by
    match a with
    | ⟨0, _⟩ => rfl)
  rw [eb]
  refine congrArg (· + c (ix1 e)) (Finset.sum_congr rfl fun d _ => ?_)
  have el : lidx_main_v12 (ix3 B s e) d = ix3 B s d := funext fun a => Fin.ext (by
    match a with
    | ⟨0, _⟩ => rfl
    | ⟨1, _⟩ => rfl
    | ⟨2, _⟩ => rfl)
  have er : ridx_main_v12 (ix3 B s e) d = ix2 e d := funext fun a => Fin.ext (by
    match a with
    | ⟨0, _⟩ => rfl
    | ⟨1, _⟩ => rfl)
  rw [el, er]

end Cert.RefAttn

end
-- ==== Proof.LibReshape.lean ====
/-
  Two reshapes in a row are one: a reshape matches multi-indices by row-major position, so going through a third shape
  matches directly.
-/
import Idealize.ShloMosaic.Lib.Pipeline.Value

namespace Reshape

open Idealize.ShloMosaic

/-- Reshaping to `t` and then to `u` is reshaping to `u`. -/
theorem shapeCast_shapeCast_eq {s t u : Shape} {α : Type} (x : s.Idx → α) (h : s.ShapeCasts t) (h' : t.ShapeCasts u)
    (h'' : s.ShapeCasts u) : shapeCast u (shapeCast t x h) h' = shapeCast u x h'' :=
  funext fun j => congrArg x (Shape.reshapeEquiv_reshapeEquiv h h' j)

end Reshape
-- ==== Proof.KernelValue.lean ====
/-
  What the idealized kernel returns, as the reference's own terms of the arguments.

  The chain, from the last boundary of @main back to the launch: the two results are reshapes of the attention call's
  arrays; those are the whole-array attention of the stacks of heads the call finds; the stacks are the three
  projections split into heads; the projections are the projection call's arrays; and those are the reference's
  projections x W^T + b flattened, the queries' scaled by 1/8. Merging and splitting axes only renames entries, and
  scaling the queries by 1/8 before the scores is dividing the scores by the square root of 64, so the weights are the
  reference's softmax and the output the reference's weighted values.
-/
import proofs.«164298_j55353538511182_2_alg».proof.Proof.KernelHost
import proofs.«164298_j55353538511182_2_alg».proof.Proof.ProjArrays
import proofs.«164298_j55353538511182_2_alg».proof.Proof.AttnArrays
import proofs.«164298_j55353538511182_2_alg».proof.Proof.ProjBridge
import proofs.«164298_j55353538511182_2_alg».proof.Proof.HeadsBridge
import proofs.«164298_j55353538511182_2_alg».proof.Proof.RefAttention
import proofs.«164298_j55353538511182_2_alg».proof.Proof.RefProjection
import proofs.«164298_j55353538511182_2_alg».proof.Proof.LibReshape

set_option maxRecDepth 16384

noncomputable section

namespace Cert.KernelIdeal.Results

open Cert.KernelIdeal Cert.KernelIdeal.Gen
open Cert.ReferenceIdeal.Read
open Idealize.ShloMosaic Idealize.ShloMosaic.TcCoe
open Idealize.SL Idealize.SL.Sem

/-- The reference's split of a projection's feature axis into 16 heads of 64. -/
theorem h34 : S2x2048x1024.ShapeCasts S2x2048x16x64 := Cert.ReferenceIdeal.Gen.shapeCasts_S2x2048x1024_S2x2048x16x64

/-- A projection over batches, split into heads the reference's way: [2, 2048, 1024] to [2, 16, 2048, 64]. -/
abbrev heads4 (P : S2x2048x1024.Idx → EReal) : S2x16x2048x64.Idx → EReal :=
  transpose S2x16x2048x64 [0, 2, 1, 3] (shapeCast S2x2048x16x64 P h34) transposes_S2x2048x16x64_S2x16x2048x64_0_2_1_3

/-- Splitting the flattened projection into a stack of heads is stacking the reference's heads: the two reshapes in a
    row are one. -/
theorem toHeads_flat (P : S2x2048x1024.Idx → EReal) :
    Host.toHeads (shapeCast S4096x1024 P shapeCasts_S2x2048x1024_S4096x1024) = Heads.stack (heads4 P) := by
  unfold Host.toHeads Heads.stack heads4
  rw [Reshape.shapeCast_shapeCast_eq P shapeCasts_S2x2048x1024_S4096x1024 shapeCasts_S4096x1024_S2x2048x16x64 h34]

/-- The same with every entry scaled: reshapes and the exchange of axes only rename entries. -/
theorem toHeads_flat_scaled (P : S2x2048x1024.Idx → EReal) (k : EReal) :
    Host.toHeads (fun i => shapeCast S4096x1024 P shapeCasts_S2x2048x1024_S4096x1024 i * k)
      = Heads.stack (fun y => heads4 P y * k) := by
  show (fun j => Host.toHeads (shapeCast S4096x1024 P shapeCasts_S2x2048x1024_S4096x1024) j * k)
    = (fun j => Heads.stack (heads4 P) j * k)
  rw [toHeads_flat P]

variable (m : (ℓ : Loc nD τ sig) → Buf (Elt Ideal) ℓ) (ρ : Dev nD → PrngReg)

/-! ## The projection call's arrays are the reference's projections, flattened -/

theorem W2_q (c : Dev nD) : W2 m ρ c (Proc.devRef .tc main_v10_0)
    = fun i => shapeCast S4096x1024 (val_main_v3 (F := Ideal) (m ((c : Thread nD τ).loc main_arg0)) (m ((c : Thread nD τ).loc main_arg1)) (m ((c : Thread nD τ).loc main_arg2)))
        shapeCasts_S2x2048x1024_S4096x1024 i * Ideal.ofBits .f32 0x3E000000#32 := by
  refine (W2_arr m ρ c 7).trans ?_
  refine (ProjArrays.final7 (V1 m ρ) c).trans ?_
  show (fun i => ProjArrays.projRows (W1 m ρ c (Proc.devRef .tc main_v9)) (W1 m ρ c (Proc.devRef .tc main_v1)) (W1 m ρ c (Proc.devRef .tc main_v6)) i * Ideal.ofBits .f32 0x3E000000#32) = _
  rw [Host.W1_v9, Host.W1_v1, Host.W1_v6,
    ProjBridge.projRows_eq _ _ _ (val_main_v3 (F := Ideal) (m ((c : Thread nD τ).loc main_arg0)) (m ((c : Thread nD τ).loc main_arg1)) (m ((c : Thread nD τ).loc main_arg2)))
      (fun B s e => Cert.RefAttn.proj_q_apply _ _ _ B s e)]

theorem W2_k (c : Dev nD) : W2 m ρ c (Proc.devRef .tc main_v10_1)
    = shapeCast S4096x1024 (val_main_v9 (F := Ideal) (m ((c : Thread nD τ).loc main_arg0)) (m ((c : Thread nD τ).loc main_arg3)) (m ((c : Thread nD τ).loc main_arg4)))
        shapeCasts_S2x2048x1024_S4096x1024 := by
  refine (W2_arr m ρ c 8).trans ?_
  refine (ProjArrays.final8 (V1 m ρ) c).trans ?_
  show ProjArrays.projRows (W1 m ρ c (Proc.devRef .tc main_v9)) (W1 m ρ c (Proc.devRef .tc main_v3)) (W1 m ρ c (Proc.devRef .tc main_v7)) = _
  rw [Host.W1_v9, Host.W1_v3, Host.W1_v7]
  exact ProjBridge.projRows_eq _ _ _ _ (fun B s e => Cert.RefAttn.proj_k_apply _ _ _ B s e)

theorem W2_v (c : Dev nD) : W2 m ρ c (Proc.devRef .tc main_v10_2)
    = shapeCast S4096x1024 (val_main_v15 (F := Ideal) (m ((c : Thread nD τ).loc main_arg0)) (m ((c : Thread nD τ).loc main_arg5)) (m ((c : Thread nD τ).loc main_arg6)))
        shapeCasts_S2x2048x1024_S4096x1024 := by
  refine (W2_arr m ρ c 9).trans ?_
  refine (ProjArrays.final9 (V1 m ρ) c).trans ?_
  show ProjArrays.projRows (W1 m ρ c (Proc.devRef .tc main_v9)) (W1 m ρ c (Proc.devRef .tc main_v5)) (W1 m ρ c (Proc.devRef .tc main_v8)) = _
  rw [Host.W1_v9, Host.W1_v5, Host.W1_v8]
  exact ProjBridge.projRows_eq _ _ _ _ (fun B s e => Cert.RefAttn.proj_v_apply _ _ _ B s e)

/-! ## The attention call's arrays -/

/-- The weights the attention call leaves, split into the batch of heads, are the reference's attention weights. -/
theorem weights_eq (c : Dev nD) :
    shapeCast S2x16x2048x2048 (W4 m ρ c (Proc.devRef .tc main_v20_1)) shapeCasts_S32x2048x2048_S2x16x2048x2048
      = val_main_v32 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  rw [show W4 m ρ c (Proc.devRef .tc main_v20_1) = _ from (W4_arr m ρ c 4).trans (AttnArrays.final4 (V3 m ρ) c)]
  show shapeCast S2x16x2048x2048 (AttnArrays.weights3 (W3 m ρ c (Proc.devRef .tc main_v13)) (W3 m ρ c (Proc.devRef .tc main_v16))) shapeCasts_S32x2048x2048_S2x16x2048x2048 = _
  rw [Host.W3_v13, Host.W3_v16, W2_q, W2_k, toHeads_flat_scaled, toHeads_flat, Heads.weights_heads, Heads.scaled_weights]
  exact (Cert.RefAttn.attn_eq _ _ _ _ _).symm

/-- The output the attention call leaves, split into the batch of heads, is the reference's weighted values. -/
theorem out_eq (c : Dev nD) :
    shapeCast S2x16x2048x64 (W4 m ρ c (Proc.devRef .tc main_v20_0)) shapeCasts_S32x2048x64_S2x16x2048x64
      = val_main_v33 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  rw [show W4 m ρ c (Proc.devRef .tc main_v20_0) = _ from (W4_arr m ρ c 3).trans (AttnArrays.final3 (V3 m ρ) c)]
  show shapeCast S2x16x2048x64 (AttnArrays.out3 (W3 m ρ c (Proc.devRef .tc main_v13)) (W3 m ρ c (Proc.devRef .tc main_v16)) (W3 m ρ c (Proc.devRef .tc main_v19))) shapeCasts_S32x2048x64_S2x16x2048x64 = _
  rw [Host.W3_v13, Host.W3_v16, Host.W3_v19, W2_q, W2_k, W2_v, toHeads_flat_scaled, toHeads_flat, toHeads_flat,
    Heads.out_heads, Heads.scaled_weights]
  refine Eq.trans ?_ (Cert.RefAttn.out_eq _ _ _ _ _ _ _).symm
  exact congrArg (fun a => Cert.Attn.weighted a _) (Cert.RefAttn.attn_eq _ _ _ _ _).symm

/-! ## The two results -/

theorem result_weights (c : Dev nD) : W5 m ρ c (Proc.devRef .tc main_v24)
    = val_main_v32 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) :=
  (Host.W5_v24 m ρ c).trans (weights_eq m ρ c)

theorem result_out (c : Dev nD) : W5 m ρ c (Proc.devRef .tc main_v23)
    = val_main_v35 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  rw [Host.W5_v23, out_eq]
  rfl

end Cert.KernelIdeal.Results

end
-- ==== Proof.lean ====
/-
  Multi-head self-attention (2 batches, 2048 positions, model width 1024, 16 heads of 64 features) as two kernels,
  against the plain formula; both read on the extended reals.

  The kernel flattens the input to 4096 rows, computes the three projections x W^T + b in one call (8 blocks of 512
  rows, the queries scaled by 1/8 there), splits them into 32 head matrices, and in a second call computes, per head and
  per block of 512 query rows, the scores q k^T, their row softmax (the returned weights) and the weights times the
  values; reshapes put the two results into the reference's layout. The reference computes the same projections, the
  scores divided by the square root of 64, their softmax and the weighted values.

  The two agree entry by entry: reshapes, transposes and blocks only rename entries; the sums of products are the same
  sums; and scaling a query row by 1/8 before the scores is dividing each score by sqrt 64 = 8, because a nonnegative real
  factor distributes over any sum of extended reals. Nothing is assumed finite, so the precondition is not opened.
  The idealization rewrote no operation, so the kernel's idealized program is its own text read on the extended reals.
-/
import proofs.«164298_j55353538511182_2_alg».proof.Defs
import proofs.«164298_j55353538511182_2_alg».proof.Proof.Gen.Kernel
import proofs.«164298_j55353538511182_2_alg».proof.Proof.Gen.Kernel.Skeleton
import proofs.«164298_j55353538511182_2_alg».proof.Proof.Gen.Kernel.Launch
import proofs.«164298_j55353538511182_2_alg».proof.Proof.Gen.Kernel.Points
import proofs.«164298_j55353538511182_2_alg».proof.Proof.Gen.Kernel.Frame
import proofs.«164298_j55353538511182_2_alg».proof.Proof.Gen.KernelIdeal
import proofs.«164298_j55353538511182_2_alg».proof.Proof.Gen.KernelIdeal.Skeleton
import proofs.«164298_j55353538511182_2_alg».proof.Proof.Gen.KernelIdeal.Launch
import proofs.«164298_j55353538511182_2_alg».proof.Proof.Gen.KernelIdeal.Points
import proofs.«164298_j55353538511182_2_alg».proof.Proof.Gen.KernelIdeal.Frame
import proofs.«164298_j55353538511182_2_alg».proof.Proof.Gen.ReferenceIdeal
import proofs.«164298_j55353538511182_2_alg».proof.Proof.Gen.ReferenceIdeal.Run
import proofs.«164298_j55353538511182_2_alg».proof.Proof.Gen.ReferenceIdeal.Read
import proofs.«164298_j55353538511182_2_alg».proof.Proof.Gen.Pre_finite_inputs
import proofs.«164298_j55353538511182_2_alg».proof.Proof.KernelRun
import proofs.«164298_j55353538511182_2_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The reference's output term at the kernel's launch arguments. -/
abbrev resOut (m : (ℓ : Loc Cert.KernelIdeal.nD Cert.KernelIdeal.τ Cert.KernelIdeal.sig) → Buf (Elt Ideal) ℓ)
    (c : Dev Cert.KernelIdeal.nD) :
    Buf (Elt Ideal) ((c : Thread Cert.KernelIdeal.nD Cert.KernelIdeal.τ).loc Cert.KernelIdeal.main_v23) :=
  Cert.ReferenceIdeal.Read.val_main_v35 (F := Ideal)
    (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2))
    (m ((c : Thread Cert.KernelIdeal.nD Cert.KernelIdeal.τ).loc Cert.KernelIdeal.main_arg3))
    (m ((c : Thread Cert.KernelIdeal.nD Cert.KernelIdeal.τ).loc Cert.KernelIdeal.main_arg4))
    (m ((c : Thread Cert.KernelIdeal.nD Cert.KernelIdeal.τ).loc Cert.KernelIdeal.main_arg5))
    (m ((c : Thread Cert.KernelIdeal.nD Cert.KernelIdeal.τ).loc Cert.KernelIdeal.main_arg6))

/-- The reference's attention-weights term at the kernel's launch arguments. -/
abbrev resWeights (m : (ℓ : Loc Cert.KernelIdeal.nD Cert.KernelIdeal.τ Cert.KernelIdeal.sig) → Buf (Elt Ideal) ℓ)
    (c : Dev Cert.KernelIdeal.nD) :
    Buf (Elt Ideal) ((c : Thread Cert.KernelIdeal.nD Cert.KernelIdeal.τ).loc Cert.KernelIdeal.main_v24) :=
  Cert.ReferenceIdeal.Read.val_main_v32 (F := Ideal)
    (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2))
    (m ((c : Thread Cert.KernelIdeal.nD Cert.KernelIdeal.τ).loc Cert.KernelIdeal.main_arg3))
    (m ((c : Thread Cert.KernelIdeal.nD Cert.KernelIdeal.τ).loc Cert.KernelIdeal.main_arg4))

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both idealized programs, from memories agreeing on the seven arguments, end with the same two results. -/
theorem algebraic : Cert.algebraic_KernelIdeal_ReferenceIdeal := by
  intro m ρ m' ρ' _ hagree
  refine ⟨resOut m, resWeights m, ?_, ?_⟩
  · exact (θ_run (Cert.KernelIdeal.defs (F := Ideal)) _ _).mono
      (fun r h c => ⟨(h c).1.trans (Cert.KernelIdeal.Results.result_out m ρ c),
        (h c).2.1.trans (Cert.KernelIdeal.Results.result_weights m ρ c), (h c).2.2⟩)
      (Cert.KernelIdeal.RunValue.run (F := Ideal) m ρ)
  · refine (θ_run Cert.ReferenceIdeal.defs _ _).mono (fun r h c => ?_) (Cert.ReferenceIdeal.Value.run (F := Ideal) m' ρ')
    obtain ⟨a0, a1, a2, a3, a4, a5, a6⟩ := hagree c
    refine ⟨?_, ?_, (h c).2.2⟩
    · rw [(h c).1, Cert.ReferenceIdeal.Read.val_main_v35_eq, a0, a1, a2, a3, a4, a5, a6]
    · rw [(h c).2.1, Cert.ReferenceIdeal.Read.val_main_v32_eq, a0, a1, a2, a3, a4]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
